-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S64 .f32) (main_arg8 : FVec F S1024x64 .f32) (main_arg9 : FVec F S1024 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1024x64 .f32 := Host.absf main_arg8
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S64x1024 .f32) (main_arg5 : FVec F S64 .f32) (main_arg6 : FVec F S64x1024 .f32) (main_arg7 : FVec F S64 .f32) (main_arg8 : FVec F S1024x64 .f32) (main_arg9 : FVec F S1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S4x2048x1024 .f32) (main_arg2 : FVec F S64x1024 .f32) (main_arg3 : FVec F S64 .f32) (main_arg4 : FVec F S64x1024 .f32) (main_arg5 : FVec F S64 .f32) (main_arg6 : FVec F S64x1024 .f32) (main_arg7 : FVec F S64 .f32) (main_arg8 : FVec F S1024x64 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S1024x128 : Shape := ⟨2, ![1024, 128]⟩
abbrev S1x64 : Shape := ⟨2, ![1, 64]⟩
abbrev S128 : Shape := ⟨1, ![128]⟩
abbrev S1x128 : Shape := ⟨2, ![1, 128]⟩
abbrev S1x1024 : Shape := ⟨2, ![1, 1024]⟩
abbrev S1x2048x1024 : Shape := ⟨3, ![1, 2048, 1024]⟩
abbrev S1x256x1024 : Shape := ⟨3, ![1, 256, 1024]⟩
abbrev S2048x64 : Shape := ⟨2, ![2048, 64]⟩
abbrev S2048x1024 : Shape := ⟨2, ![2048, 1024]⟩
abbrev S256x1024 : Shape := ⟨2, ![256, 1024]⟩
abbrev S256x128 : Shape := ⟨2, ![256, 128]⟩
abbrev S256x64 : Shape := ⟨2, ![256, 64]⟩
abbrev S64x256 : Shape := ⟨2, ![64, 256]⟩
abbrev S2048x256 : Shape := ⟨2, ![2048, 256]⟩
abbrev S256 : Shape := ⟨1, ![256]⟩
abbrev S1x256 : Shape := ⟨2, ![1, 256]⟩

abbrev nBuf : Space → Nat
  | .hbm => 23
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S64x1024, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x64, .f32⟩
  | .hbm, ⟨9, _⟩ => ⟨S1024, .f32⟩
  | .hbm, ⟨10, _⟩ => ⟨S1024x64, .f32⟩
  | .hbm, ⟨11, _⟩ => ⟨S1024x64, .bf16⟩
  | .hbm, ⟨12, _⟩ => ⟨S1024x64, .f32⟩
  | .hbm, ⟨13, _⟩ => ⟨S1024x64, .f32⟩
  | .hbm, ⟨14, _⟩ => ⟨S1024x128, .f32⟩
  | .hbm, ⟨15, _⟩ => ⟨S1024x128, .bf16⟩
  | .hbm, ⟨16, _⟩ => ⟨S64x1024, .f32⟩
  | .hbm, ⟨17, _⟩ => ⟨S64x1024, .bf16⟩
  | .hbm, ⟨18, _⟩ => ⟨S1x64, .f32⟩
  | .hbm, ⟨19, _⟩ => ⟨S128, .f32⟩
  | .hbm, ⟨20, _⟩ => ⟨S1x128, .f32⟩
  | .hbm, ⟨21, _⟩ => ⟨S1x1024, .f32⟩
  | .hbm, ⟨22, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x64, .bf16⟩
  | .local _ .vmem, ⟨5, _⟩ => ⟨S1x64, .f32⟩
  | .local _ .vmem, ⟨6, _⟩ => ⟨S1024x128, .bf16⟩
  | .local _ .vmem, ⟨7, _⟩ => ⟨S1x128, .f32⟩
  | .local _ .vmem, ⟨8, _⟩ => ⟨S64x1024, .bf16⟩
  | .local _ .vmem, ⟨9, _⟩ => ⟨S1x1024, .f32⟩
  | .local _ .vmem, ⟨10, _⟩ => ⟨S1x2048x1024, .f32⟩
  | .local _ .vmem, ⟨11, _⟩ => ⟨S1x2048x1024, .f32⟩
  | .local _ .vmem, ⟨12, _⟩ => ⟨S2048x64, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  transposes_S64x1024_S1024x64_1_0 : S64x1024.Transposes [1, 0] S1024x64
  bitsLt_bf16_f32 : FTy.bits .bf16 < FTy.bits .f32
  concatenates_S1024x64_S1024x64_S1024x128_d1 : Shape.Concatenates [S1024x64, S1024x64] S1024x128 1
  transposes_S1024x64_S64x1024_1_0 : S1024x64.Transposes [1, 0] S64x1024
  shapeCasts_S64_S1x64 : S64.ShapeCasts S1x64
  concatenates_S64_S64_S128_d0 : Shape.Concatenates [S64, S64] S128 0
  shapeCasts_S128_S1x128 : S128.ShapeCasts S1x128
  shapeCasts_S1024_S1x1024 : S1024.ShapeCasts S1x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  slices_S256x128_o0_0_S256x64 : S256x128.Slices ![0, 0] S256x64
  slices_S256x128_o0_64_S256x64 : S256x128.Slices ![0, 64] S256x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  transposes_S256x64_p1_0_S64x256 : S256x64.Transposes [1, 0] S64x256
  reduces_S2048x256_S256 : S2048x256.Reduces [0] S256
  shapeCasts_S256_S1x256 : S256.ShapeCasts S1x256
  broadcasts_S1x256_S2048x256 : S1x256.Broadcasts S2048x256
  dot_S2048x1024_S1024x64_S2048x64_1_0_0_1_n_n_wf : DotDims.WF S2048x1024 S1024x64 S2048x64 [1] [0] [0] [1] [] []
  dot_S256x1024_S1024x128_S256x128_1_0_0_1_n_n_wf : DotDims.WF S256x1024 S1024x128 S256x128 [1] [0] [0] [1] [] []
  dot_S256x64_S64x1024_S256x1024_1_0_0_1_n_n_wf : DotDims.WF S256x64 S64x1024 S256x1024 [1] [0] [0] [1] [] []
  dot_S2048x64_S64x256_S2048x256_1_0_0_1_n_n_wf : DotDims.WF S2048x64 S64x256 S2048x256 [1] [0] [0] [1] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x2048x1024.size a
  hwx0_1 : ∀ i : grid0.Coords, EltTy.bits .f32 = 32 ∨ (Rect.block (s := S4x2048x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .bf16 = 32 ∨ (Rect.block (s := S64x1024) S64x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x1024.size a ≤ S4x2048x1024.size a
  hwx0_8 : ∀ i : grid0.Coords, EltTy.bits .f32 = 32 ∨ (Rect.block (s := S4x2048x1024) S1x2048x1024.size (cc0_transform_8 i) (hinb0_8 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S64x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x2048x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S64x1024 : Shape := ⟨2, ![64, 1024]⟩
abbrev S64 : Shape := ⟨1, ![64]⟩
abbrev S1024x64 : Shape := ⟨2, ![1024, 64]⟩
abbrev S1024 : Shape := ⟨1, ![1024]⟩
abbrev S4x2048x64 : Shape := ⟨3, ![4, 2048, 64]⟩
abbrev S1x1x64 : Shape := ⟨3, ![1, 1, 64]⟩
abbrev S4x2048x2048 : Shape := ⟨3, ![4, 2048, 2048]⟩
abbrev S_ : Shape := ⟨0, ![]⟩
abbrev S4x2048 : Shape := ⟨2, ![4, 2048]⟩
abbrev S4x1x2048 : Shape := ⟨3, ![4, 1, 2048]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S64x1024, .f32⟩
  | .hbm, ⟨3, _⟩ => ⟨S64, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x64, .f32⟩
  | .hbm, ⟨9, _⟩ => ⟨S1024, .f32⟩
  | .hbm, ⟨10, _⟩ => ⟨S4x2048x64, .f32⟩
  | .hbm, ⟨11, _⟩ => ⟨S1x1x64, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .hbm, ⟨15, _⟩ => ⟨S1x1x64, .f32⟩
  | .hbm, ⟨16, _⟩ => ⟨S4x2048x64, .f32⟩
  | .hbm, ⟨17, _⟩ => ⟨S4x2048x64, .f32⟩
  | .hbm, ⟨18, _⟩ => ⟨S4x2048x2048, .f32⟩
  | .hbm, ⟨19, _⟩ => ⟨S_, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x1x2048, .f32⟩
  | .hbm, ⟨35, _⟩ => ⟨S4x2048x2048, .f32⟩
  | .hbm, ⟨36, _⟩ => ⟨S4x2048x2048, .f32⟩
  | .hbm, ⟨37, _⟩ => ⟨S4x2048x64, .f32⟩
  | .hbm, ⟨38, _⟩ => ⟨S1x1x64, .f32⟩
  | .hbm, ⟨39, _⟩ => ⟨S4x2048x64, .f32⟩
  | .hbm, ⟨40, _⟩ => ⟨S4x2048x64, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S4x2048x2048 : S_.BroadcastsInDim S4x2048x2048 (![] : Fin 0 → Fin S4x2048x2048.rank)
  reducesTo_S4x2048x2048_S4x2048_d1 : S4x2048x2048.ReducesTo [1] S4x2048
  h_S_ : 0 < S_.numel
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x2048x2048_0_1_2 : S4x1x2048.BroadcastsInDim S4x2048x2048 (![0, 1, 2] : Fin 3 → Fin S4x2048x2048.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x64_S1024x64_S4x2048x1024_2_1_01_0_n_n_wf : DotDims.WF S4x2048x64 S1024x64 S4x2048x1024 [2] [1] [0, 1] [0] [] []
  dot_S4x2048x2048_S4x2048x1024_S4x2048x1024_2_1_1_2_0_0_wf : DotDims.WF S4x2048x2048 S4x2048x1024 S4x2048x1024 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x64_S1024x64_S4x2048x1024_2_1_01_0_n_n : DotDims S4x2048x64 S1024x64 S4x2048x1024 where
  lhsContracting := [2]
  rhsContracting := [1]
  lhsNonContracting := [0, 1]
  rhsNonContracting := [0]
  lhsBatch := []
  rhsBatch := []
  wf := dot_S4x2048x64_S1024x64_S4x2048x1024_2_1_01_0_n_n_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Pieces.lean ====
/-
  What one grid point of the kernel leaves behind, as pure functions of what it read.

  A grid point is a pair (batch, key tile). At the first key tile of a batch the body stores the scaled query
  projection of the whole batch into the scratch buffer and zeroes the output block; at every key tile it then
  reads the scratch and the output block back, computes the tile's attention weights and value rows, and adds
  their product to the output block. So:
    first tile:   scratch  <- Qs(x-block, WqT, bq)                       output <- 0 + W(Qs, y-tile, ...) * Vt(y-tile, ...)
    later tiles:  scratch  unchanged (what the tile before left)         output <- previous + W(scratch, y-tile, ...) * Vt(y-tile, ...)
  where Qs, W, Vt and the final "previous + product" are the body's arithmetic as single terms.
-/
import proofs.«150910_j72275709657317_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A LATER KEY TILE. The output block, which held `xo8`, ends at `xo8` plus the tile's weights (from the scratch
    `xs0` and the key/value tile) times the tile's value rows: the one store covers the block, and every load reads a
    whole buffer. -/
theorem out_B (c : Dev nD) (i : grid0.Coords) (a2 : Memref sig .tc .vmem S1x2048x1024 .f32) (h2 : a2.IsWhole) (a3 : Memref sig .tc .vmem S1x256x1024 .f32) (h3 : a3.IsWhole) (a4 : Memref sig .tc .vmem S1024x64 .bf16) (h4 : a4.IsWhole) (a5 : Memref sig .tc .vmem S1x64 .f32) (h5 : a5.IsWhole) (a6 : Memref sig .tc .vmem S1024x128 .bf16) (h6 : a6.IsWhole) (a7 : Memref sig .tc .vmem S1x128 .f32) (h7 : a7.IsWhole) (a8 : Memref sig .tc .vmem S64x1024 .bf16) (h8 : a8.IsWhole) (a9 : Memref sig .tc .vmem S1x1024 .f32) (h9 : a9.IsWhole) (a10 : Memref sig .tc .vmem S1x2048x1024 .f32) (h10 : a10.IsWhole) (a11 : Memref sig .tc .vmem S2048x64 .bf16) (h11 : a11.IsWhole) (hc : ¬cond0_0 i) (x0 : Vec F S1x2048x1024 .f32) (x1 : Vec F S1x256x1024 .f32) (x2 : Vec F S1024x64 .bf16) (x3 : Vec F S1x64 .f32) (x4 : Vec F S1024x128 .bf16) (x5 : Vec F S1x128 .f32) (x6 : Vec F S64x1024 .bf16) (x7 : Vec F S1x1024 .f32) (xo8 : Vec F S1x2048x1024 .f32) (xs0 : Vec F S2048x64 .bf16) :
    out0_B_8 c i a2 h2 a3 h3 a4 h4 a5 h5 a6 h6 a7 h7 a8 h8 a9 h9 a10 h10 a11 h11 hc x0 x1 x2 x3 x4 x5 x6 x7 xo8 xs0 = k0_pay1 (k0_pay5 x1 x4 x5 x6 x7) (k0_pay6 xs0 x1 x4 x5) xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 x7 xo8 xs0)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, h11.read_unread,
    View.ld_unit_zero (S := S1x2048x1024) hz3, View.ld_unit_zero (S := S1x256x1024) hz3, View.ld_unit_zero (S := S2048x64) hz2, View.ld_unit_zero (S := S1024x64) hz2, View.ld_unit_zero (S := S1x64) hz2, View.ld_unit_zero (S := S1024x128) hz2, View.ld_unit_zero (S := S1x128) hz2, View.ld_unit_zero (S := S64x1024) hz2, View.ld_unit_zero (S := S1x1024) hz2]

/-- THE FIRST KEY TILE of a batch. The scratch is stored whole with the scaled query projection and the output block
    with zeros; both are read back (the loads see exactly what was just stored), so the output block ends at zero plus
    the tile's weights, computed from the fresh scratch, times the tile's value rows. -/
theorem out_A (c : Dev nD) (i : grid0.Coords) (a2 : Memref sig .tc .vmem S1x2048x1024 .f32) (h2 : a2.IsWhole) (a3 : Memref sig .tc .vmem S1x256x1024 .f32) (h3 : a3.IsWhole) (a4 : Memref sig .tc .vmem S1024x64 .bf16) (h4 : a4.IsWhole) (a5 : Memref sig .tc .vmem S1x64 .f32) (h5 : a5.IsWhole) (a6 : Memref sig .tc .vmem S1024x128 .bf16) (h6 : a6.IsWhole) (a7 : Memref sig .tc .vmem S1x128 .f32) (h7 : a7.IsWhole) (a8 : Memref sig .tc .vmem S64x1024 .bf16) (h8 : a8.IsWhole) (a9 : Memref sig .tc .vmem S1x1024 .f32) (h9 : a9.IsWhole) (a10 : Memref sig .tc .vmem S1x2048x1024 .f32) (h10 : a10.IsWhole) (a11 : Memref sig .tc .vmem S2048x64 .bf16) (h11 : a11.IsWhole) (hc : cond0_0 i) (x0 : Vec F S1x2048x1024 .f32) (x1 : Vec F S1x256x1024 .f32) (x2 : Vec F S1024x64 .bf16) (x3 : Vec F S1x64 .f32) (x4 : Vec F S1024x128 .bf16) (x5 : Vec F S1x128 .f32) (x6 : Vec F S64x1024 .bf16) (x7 : Vec F S1x1024 .f32) :
    out0_A_8 c i a2 h2 a3 h3 a4 h4 a5 h5 a6 h6 a7 h7 a8 h8 a9 h9 a10 h10 a11 h11 hc x0 x1 x2 x3 x4 x5 x6 x7 = k0_pay1 (k0_pay5 x1 x4 x5 x6 x7) (k0_pay6 (k0_pay2 x0 x2 x3) x1 x4 x5) (k0_pay3 (F := F)) := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_cons_unit_zero (S := S1x2048x1024) hz3, View.readCov_unit_zero (S := S1x2048x1024) _ hz3,
    View.readCov_unit_zero (S := S2048x64) _ hz2]
  simp only [View.readAt_eq_ld, h2.read_unread, h3.read_unread, h4.read_unread, h5.read_unread, h6.read_unread, h7.read_unread, h8.read_unread, h9.read_unread, h10.read_unread, h11.read_unread,
    View.ld_unit_zero (S := S1x2048x1024) hz3, View.ld_unit_zero (S := S1x256x1024) hz3, View.ld_unit_zero (S := S2048x64) hz2, View.ld_unit_zero (S := S1024x64) hz2, View.ld_unit_zero (S := S1x64) hz2, View.ld_unit_zero (S := S1024x128) hz2, View.ld_unit_zero (S := S1x128) hz2, View.ld_unit_zero (S := S64x1024) hz2, View.ld_unit_zero (S := S1x1024) hz2]

/-- At the first key tile the scratch ends at the scaled query projection of the batch's `x` block. -/
theorem sout_A (c : Dev nD) (i : grid0.Coords) (a2 : Memref sig .tc .vmem S1x2048x1024 .f32) (h2 : a2.IsWhole) (a3 : Memref sig .tc .vmem S1x256x1024 .f32) (h3 : a3.IsWhole) (a4 : Memref sig .tc .vmem S1024x64 .bf16) (h4 : a4.IsWhole) (a5 : Memref sig .tc .vmem S1x64 .f32) (h5 : a5.IsWhole) (a6 : Memref sig .tc .vmem S1024x128 .bf16) (h6 : a6.IsWhole) (a7 : Memref sig .tc .vmem S1x128 .f32) (h7 : a7.IsWhole) (a8 : Memref sig .tc .vmem S64x1024 .bf16) (h8 : a8.IsWhole) (a9 : Memref sig .tc .vmem S1x1024 .f32) (h9 : a9.IsWhole) (a10 : Memref sig .tc .vmem S1x2048x1024 .f32) (h10 : a10.IsWhole) (a11 : Memref sig .tc .vmem S2048x64 .bf16) (h11 : a11.IsWhole) (hc : cond0_0 i) (x0 : Vec F S1x2048x1024 .f32) (x1 : Vec F S1x256x1024 .f32) (x2 : Vec F S1024x64 .bf16) (x3 : Vec F S1x64 .f32) (x4 : Vec F S1024x128 .bf16) (x5 : Vec F S1x128 .f32) (x6 : Vec F S64x1024 .bf16) (x7 : Vec F S1x1024 .f32) :
    sout0_A_0 c i a2 h2 a3 h3 a4 h4 a5 h5 a6 h6 a7 h7 a8 h8 a9 h9 a10 h10 a11 h11 hc x0 x1 x2 x3 x4 x5 x6 x7 = k0_pay2 x0 x2 x3 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread,
    View.ld_unit_zero (S := S1x2048x1024) hz3, View.ld_unit_zero (S := S1x256x1024) hz3, View.ld_unit_zero (S := S2048x64) hz2, View.ld_unit_zero (S := S1024x64) hz2, View.ld_unit_zero (S := S1x64) hz2, View.ld_unit_zero (S := S1024x128) hz2, View.ld_unit_zero (S := S1x128) hz2, View.ld_unit_zero (S := S64x1024) hz2, View.ld_unit_zero (S := S1x1024) hz2]

end Cert.KernelIdeal.Pieces

end
-- ==== Proof.Matmuls.lean ====
/-
  The kernel's five matrix products, each read at one entry: with a zero accumulator and exact arithmetic the
  entry (p, n) of l * r is the plain sum over the contracted axis k of l[p,k] * r[k,n].
-/
import proofs.«150910_j72275709657317_2_alg».proof.Proof.Gen.KernelIdeal.Skeleton
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

theorem mm_q_l0 (i : S2048x64.Idx) (q : dot_S2048x1024_S1024x64_S2048x64_1_0_0_1_n_n.contr.Idx) : (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem mm_q_r1 (i : S2048x64.Idx) (q : dot_S2048x1024_S1024x64_S2048x64_1_0_0_1_n_n.contr.Idx) : (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl
/-- The 2048x1024 by 1024x64 matrix product into a zero accumulator, entry (p, n): the sum over k of l[p,k] * r[k,n]. -/
theorem mm_q (l : FVec Ideal S2048x1024 .bf16) (r : FVec Ideal S1024x64 .bf16) (p : Fin 2048) (n : Fin 64) :
    matmul dot_S2048x1024_S1024x64_S2048x64_1_0_0_1_n_n none l r (constant S2048x64 .f32 0x00000000#32) (ix2 p n) = ∑ k : Fin 1024, l (ix2 p k) * r (ix2 k n) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p n) ((contrEquiv1 dot_S2048x1024_S1024x64_S2048x64_1_0_0_1_n_n 1024 rfl rfl).symm k) = ix2 p k := funext fun a => Fin.ext (by
    match a with
    | ⟨0, _⟩ => exact mm_q_l0 _ _
    | ⟨1, _⟩ => exact (dot_S2048x1024_S1024x64_S2048x64_1_0_0_1_n_n.lhsIdx_val_of_single rfl _ _).trans hk)
  have er : dot_S2048x1024_S1024x64_S2048x64_1_0_0_1_n_n.rhsIdx (ix2 p n) ((contrEquiv1 dot_S2048x1024_S1024x64_S2048x64_1_0_0_1_n_n 1024 rfl rfl).symm k) = ix2 k n := funext fun a => Fin.ext (by
    match a with
    | ⟨0, _⟩ => exact (dot_S2048x1024_S1024x64_S2048x64_1_0_0_1_n_n.rhsIdx_val_of_single rfl _ _).trans hk
    | ⟨1, _⟩ => exact mm_q_r1 _ _)
  rw [el, er]

theorem mm_kv_l0 (i : S256x128.Idx) (q : dot_S256x1024_S1024x128_S256x128_1_0_0_1_n_n.contr.Idx) : (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem mm_kv_r1 (i : S256x128.Idx) (q : dot_S256x1024_S1024x128_S256x128_1_0_0_1_n_n.contr.Idx) : (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl
/-- The 256x1024 by 1024x128 matrix product into a zero accumulator, entry (p, n): the sum over k of l[p,k] * r[k,n]. -/
theorem mm_kv (l : FVec Ideal S256x1024 .bf16) (r : FVec Ideal S1024x128 .bf16) (p : Fin 256) (n : Fin 128) :
    matmul dot_S256x1024_S1024x128_S256x128_1_0_0_1_n_n none l r (constant S256x128 .f32 0x00000000#32) (ix2 p n) = ∑ k : Fin 1024, l (ix2 p k) * r (ix2 k n) := by
  simp only [matmul]
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 p n) ((contrEquiv1 dot_S256x1024_S1024x128_S256x128_1_0_0_1_n_n 1024 rfl rfl).symm k) = ix2 p k := funext fun a => Fin.ext (by
    match a with
    | ⟨0, _⟩ => exact mm_kv_l0 _ _
    | ⟨1, _⟩ => exact (dot_S256x1024_S1024x128_S256x128_1_0_0_1_n_n.lhsIdx_val_of_single rfl _ _).trans hk)
  have er : dot_S256x1024_S1024x128_S256x128_1_0_0_1_n_n.rhsIdx (ix2 p n) ((contrEquiv1 dot_S256x1024_S1024x128_S256x128_1_0_0_1_n_n 1024 rfl rfl).symm k) = ix2 k n := funext fun a => Fin.ext (by
    match a with
    | ⟨0, _⟩ => exact (dot_S256x1024_S1024x128_S256x128_1_0_0_1_n_n.rhsIdx_val_of_single rfl _ _).trans hk
    | ⟨1, _⟩ => exact mm_kv_r1 _ _)
  rw [el, er]

theorem mm_v_l0 (i : S256x1024.Idx) (q : dot_S256x64_S64x1024_S256x1024_1_0_0_1_n_n.contr.Idx) : (dot_S256x64_S64x1024_S256x1024_1_0_0_1_n_n.lhsIdx i q 0).val = (i 0).val := by
  unfold DotDims.lhsIdx
  rw [dif_neg (show ¬(0 : Fin S256x64.rank) ∈ dot_S256x64_S64x1024_S256x1024_1_0_0_1_n_n.lhsBatch by decide), dif_pos (show (0 : Fin S256x64.rank) ∈ dot_S256x64_S64x1024_S256x1024_1_0_0_1_n_n.lhsNonContracting by decide)]
  rfl
theorem mm_v_r1 (i : S256x1024.Idx) (q : dot_S256x64_S64x1024_S256x1024_1_0_0_1_n_n.contr.Idx) : (dot_S256x64_S64x1024_S256x1024_1_0_0_1_n_n.rhsIdx i q 1).val = (i 1).val := by
  unfold DotDims.rhsIdx
  rw [dif_neg (show ¬(1 : Fin S64x1024.rank) ∈ dot_S256x64_S64x1024_S256x1024_1_0_0_1_n_n.rhsBatch by decide), dif_pos (show (1 : Fin S64x1024.rank) ∈ dot_S256x64_S64x1024_S256x1024_1_0_0_1_n_n.rhsNonContracting by decide)]
  rfl
/-- The 256x64 by 64x1024 matrix product into a zero accumulator, entry (p, n): the sum over k of l[p,k] * r[k,n]. -/
theorem mm_v (l : FVec Ideal S256x64 .bf16) (r : FVec Ideal S64x1024 .bf16) (p : Fin 256) (n : Fin 1024) :
    matmul dot_S256x64_S64x1024_S256x1024_1_0_0_1_n_n none l r (constant S256x1024 .f32 0x00000000#32) (ix2 p n) = ∑ k : Fin 64, l (ix2 p k) * r (ix2 k n) := by
  simp only [matmul]
  rw [Ideal.matmul_constant_zero_apply, ← Equiv.sum_comp (contrEquiv1 dot_S256x64_S64x1024_S256x1024_1_0_0_1_n_n 64 rfl rfl).symm]
  refine Finset.sum_congr rfl fun k _ => ?_
  have hk := contrEquiv1_symm_val dot_S256x64_S64x1024_S256x1024_1_0_0_1_n_n 64 rfl rfl k
  have el : dot_S256x64_S64x1024_S256x1024_1_0_0_1_n_n.lhsIdx (ix2 p n) ((contrEquiv1 dot_S256x64_S64x1024_S256x1024_1_0_0_1_n_n 64 rfl rfl).symm k) = ix2 p k := funext fun a => Fin.ext (by
    match a with
    | ⟨0, _⟩ => exact mm_v_l0 _ _
    | ⟨1, _⟩ => exact (dot_S256x64_S64x1024_S256x1024_1_0_0_1_n_n.lhsIdx_val_of_single rfl _ _).trans hk)
  have er : dot_S256x64_S64x1024_S256x1024_1_0_0_1_n_n.rhsIdx (ix2 p n) ((contrEquiv1 dot_S256x64_S64x1024_S256x1024_1_0_0_1_n_n 64 rfl rfl).symm k) = ix2 k n := funext fun a => Fin.ext (by
    match a with
    | ⟨0, _⟩ => exact (dot_S256x64_S64x1024_S256x1024_1_0_0_1_n_n.rhsIdx_val_of_single rfl _ _).trans hk
    | ⟨1, _⟩ => exact mm_v_r1 _ _)
  rw [el, er]

theorem mm_s_l0 (i : S2048x256.Idx) (q : dot_S2048x64_S64x256_S2048x256_1_0_0_1_n_n.contr.Idx) : (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem mm_s_r1 (i : S2048x256.Idx) (q : dot_S2048x64_S64x256_S2048x256_1_0_0_1_n_n.contr.Idx) : (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl
/-- The 2048x64 by 64x256 matrix product into a zero accumulator, entry (p, n): the sum over k of l[p,k] * r[k,n]. -/
theorem mm_s (l : FVec Ideal S2048x64 .bf16) (r : FVec Ideal S64x256 .bf16) (p : Fin 2048) (n : Fin 256) :
    matmul dot_S2048x64_S64x256_S2048x256_1_0_0_1_n_n none l r (constant S2048x256 .f32 0x00000000#32) (ix2 p n) = ∑ k : Fin 64, l (ix2 p k) * r (ix2 k n) := by
  simp only [matmul]
  rw [Ideal.matmul_constant_zero_apply, ← Equiv.sum_comp (contrEquiv1 dot_S2048x64_S64x256_S2048x256_1_0_0_1_n_n 64 rfl rfl).symm]
  refine Finset.sum_congr rfl fun k _ => ?_
  have hk := contrEquiv1_symm_val dot_S2048x64_S64x256_S2048x256_1_0_0_1_n_n 64 rfl rfl k
  have el : dot_S2048x64_S64x256_S2048x256_1_0_0_1_n_n.lhsIdx (ix2 p n) ((contrEquiv1 dot_S2048x64_S64x256_S2048x256_1_0_0_1_n_n 64 rfl rfl).symm k) = ix2 p k := funext fun a => Fin.ext (by
    match a with
    | ⟨0, _⟩ => exact mm_s_l0 _ _
    | ⟨1, _⟩ => exact (dot_S2048x64_S64x256_S2048x256_1_0_0_1_n_n.lhsIdx_val_of_single rfl _ _).trans hk)
  have er : dot_S2048x64_S64x256_S2048x256_1_0_0_1_n_n.rhsIdx (ix2 p n) ((contrEquiv1 dot_S2048x64_S64x256_S2048x256_1_0_0_1_n_n 64 rfl rfl).symm k) = ix2 k n := funext fun a => Fin.ext (by
    match a with
    | ⟨0, _⟩ => exact (dot_S2048x64_S64x256_S2048x256_1_0_0_1_n_n.rhsIdx_val_of_single rfl _ _).trans hk
    | ⟨1, _⟩ => exact mm_s_r1 _ _)
  rw [el, er]

theorem mm_o_l0 (i : S2048x1024.Idx) (q : dot_S2048x256_S256x1024_S2048x1024_1_0_0_1_n_n.contr.Idx) : (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem mm_o_r1 (i : S2048x1024.Idx) (q : dot_S2048x256_S256x1024_S2048x1024_1_0_0_1_n_n.contr.Idx) : (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl
/-- The 2048x256 by 256x1024 matrix product into a zero accumulator, entry (p, n): the sum over k of l[p,k] * r[k,n]. -/
theorem mm_o (l : FVec Ideal S2048x256 .bf16) (r : FVec Ideal S256x1024 .bf16) (p : Fin 2048) (n : Fin 1024) :
    matmul dot_S2048x256_S256x1024_S2048x1024_1_0_0_1_n_n none l r (constant S2048x1024 .f32 0x00000000#32) (ix2 p n) = ∑ k : Fin 256, l (ix2 p k) * r (ix2 k n) := by
  simp only [matmul]
  rw [Ideal.matmul_constant_zero_apply, ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 p n) ((contrEquiv1 dot_S2048x256_S256x1024_S2048x1024_1_0_0_1_n_n 256 rfl rfl).symm k) = ix2 p k := funext fun a => Fin.ext (by
    match a with
    | ⟨0, _⟩ => exact mm_o_l0 _ _
    | ⟨1, _⟩ => exact (dot_S2048x256_S256x1024_S2048x1024_1_0_0_1_n_n.lhsIdx_val_of_single rfl _ _).trans hk)
  have er : dot_S2048x256_S256x1024_S2048x1024_1_0_0_1_n_n.rhsIdx (ix2 p n) ((contrEquiv1 dot_S2048x256_S256x1024_S2048x1024_1_0_0_1_n_n 256 rfl rfl).symm k) = ix2 k n := funext fun a => Fin.ext (by
    match a with
    | ⟨0, _⟩ => exact (dot_S2048x256_S256x1024_S2048x1024_1_0_0_1_n_n.rhsIdx_val_of_single rfl _ _).trans hk
    | ⟨1, _⟩ => exact mm_o_r1 _ _)
  rw [el, er]

end Cert.KernelIdeal.Pay

end
-- ==== Proof.Payload.lean ====
/-
  The kernel body's arithmetic read entry by entry, at the exact extended reals.

  With x1 a key/value tile of y (256 rows), x4 = [Wk^T | WvR^T] (1024 x 128), x5 = [bk | bvR], x6 = WvL^T (64 x 1024),
  x7 = bvL, x0 a batch of x (2048 rows), x2 = Wq^T (1024 x 64), x3 = bq:
    the scaled query projection   Qs[q,d]   = ((sum_e x0[q,e] * x2[e,d]) + x3[d]) * (1/8)
    the stacked key/value rows    KV[j,c]   = (sum_e x1[j,e] * x4[e,c]) + x5[c]          (c < 64: key; c >= 64: value's 64-wide row)
    the tile's value rows         Vt[j,v]   = (sum_d KV[j,64+d] * x6[d,v]) + x7[v]
    the tile's scores             s[q,j]    = sum_d Qs[q,d] * KV[j,d]
    the tile's weights            w[q,j]    = exp (s[q,j] - max_q' s[q',j]) / sum_q' exp (s[q',j] - max_q'' s[q'',j])
    the accumulated block         new[q,v]  = old[q,v] + sum_j w[q,j] * Vt[j,v]
  Format changes are the identity, a matrix product into zeros is a plain sum, a reduction over the query axis is a
  sum or a fold of max over the 2048 queries.
-/
import proofs.«150910_j72275709657317_2_alg».proof.Proof.Matmuls
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The block the first key tile stores before accumulating is zero everywhere. -/
theorem pay3_apply (u : Fin 1) (q : Fin 2048) (v : Fin 1024) : k0_pay3 (F := Ideal) (ix3 u q v) = 0 := by
  unfold k0_pay3
  rw [shapeCast_ab_1ab_apply]
  exact Ideal.ofBits_zero_f32

/-- The accumulated block: the old entry plus the tile's weights against the tile's value rows. -/
theorem pay1_apply (v24 : FVec Ideal S256x1024 .bf16) (v36 : FVec Ideal S2048x256 .bf16) (v38 : Vec Ideal S1x2048x1024 .f32)
    (u : Fin 1) (q : Fin 2048) (v : Fin 1024) :
    k0_pay1 v24 v36 v38 (ix3 u q v) = v38 (ix3 (0 : Fin 1) q v) + ∑ j : Fin 256, v36 (ix2 q j) * v24 (ix2 j v) := by
  unfold k0_pay1
  rw [shapeCast_ab_1ab_apply, addf_apply, shapeCast_1ab_ab_apply, mm_o]

/-- The scaled query projection of a batch's rows. -/
theorem pay2_apply (x0 : Vec Ideal S1x2048x1024 .f32) (x2 : Vec Ideal S1024x64 .bf16) (x3 : Vec Ideal S1x64 .f32)
    (q : Fin 2048) (d : Fin 64) :
    k0_pay2 x0 x2 x3 (ix2 q d)
      = ((∑ e : Fin 1024, x0 (ix3 (0 : Fin 1) q e) * x2 (ix2 e d)) + x3 (ix2 (0 : Fin 1) d)) * Ideal.ofBits .f32 0x3E000000#32 := by
  unfold k0_pay2
  rw [shapeCast_self, truncf_apply, mulf_apply, addf_apply, broadcast_apply, broadcastTo_1b_ab_apply, shapeCast_self, mm_q]
  simp only [truncf_apply, shapeCast_self, shapeCast_1ab_ab_apply]
  rfl

/-- The stacked key/value projection of a tile's rows. -/
theorem pay4_apply (x1 : Vec Ideal S1x256x1024 .f32) (x4 : Vec Ideal S1024x128 .bf16) (x5 : Vec Ideal S1x128 .f32)
    (j : Fin 256) (c : Fin 128) :
    k0_pay4 x1 x4 x5 (ix2 j c) = (∑ e : Fin 1024, x1 (ix3 (0 : Fin 1) j e) * x4 (ix2 e c)) + x5 (ix2 (0 : Fin 1) c) := by
  unfold k0_pay4
  rw [truncf_apply, addf_apply, broadcastTo_1b_ab_apply, shapeCast_self, mm_kv]
  simp only [truncf_apply, shapeCast_self, shapeCast_1ab_ab_apply]

/-- The tile's value rows: the upper 64 columns of the stacked projection taken back up to 1024 wide. -/
theorem pay5_apply (x1 : Vec Ideal S1x256x1024 .f32) (x4 : Vec Ideal S1024x128 .bf16) (x5 : Vec Ideal S1x128 .f32)
    (x6 : Vec Ideal S64x1024 .bf16) (x7 : Vec Ideal S1x1024 .f32) (j : Fin 256) (v : Fin 1024) :
    k0_pay5 x1 x4 x5 x6 x7 (ix2 j v)
      = (∑ d : Fin 64, k0_pay4 x1 x4 x5 (ix2 j ⟨64 + d.val, by omega⟩) * x6 (ix2 d v)) + x7 (ix2 (0 : Fin 1) v) := by
  unfold k0_pay5
  rw [truncf_apply, addf_apply, broadcastTo_1b_ab_apply, shapeCast_self, mm_v]
  simp only [shapeCast_self, slice2_axis1_eq]

/-! ## The reductions over the query axis -/

/-- The column index `j` with the query coordinate `q` put back is (q, j). -/
theorem lift_q (j : Fin 256) (q : Fin 2048) : reduces_S2048x256_S256.lift (ix1 j) q = ix2 q j := by
  funext c; apply Fin.ext
  fin_cases c <;> rfl

/-- The sum over the query axis of a 2048 x 256 array, at column j. -/
theorem colsum_read (src : FVec Ideal S2048x256 .f32) (j : Fin 256) :
    multiReduction .add [0] S256 src 0x00000000#32 reduces_S2048x256_S256 (.inl rfl) rfl (ix1 j) = ∑ q : Fin 2048, src (ix2 q j) := by
  refine (Ideal.multiReduction_add_single src 0x00000000#32 reduces_S2048x256_S256 (.inl rfl) rfl (ix1 j)).trans ?_
  show ∑ q : Fin 2048, src (reduces_S2048x256_S256.lift (ix1 j) q) = _
  exact Finset.sum_congr rfl fun q _ => congrArg src (lift_q j q)

/-- The largest entry over the query axis of a 2048 x 256 array, at column j: the fold of max from minus infinity. -/
theorem colmax_read (src : FVec Ideal S2048x256 .f32) (j : Fin 256) :
    multiReduction .maximumf [0] S256 src 0xFF800000#32 reduces_S2048x256_S256 (.inl rfl) rfl (ix1 j)
      = (Finset.univ : Finset (Fin 2048)).fold max (Ideal.ofBits .f32 0xFF800000#32) (fun q => src (ix2 q j)) := by
  refine (Ideal.multiReduction_maximumf_single src 0xFF800000#32 reduces_S2048x256_S256 (.inl rfl) rfl (ix1 j)).trans ?_
  have hf : (src ∘ reduces_S2048x256_S256.lift (ix1 j)) = fun q : Fin 2048 => src (ix2 q j) :=
    funext fun q => congrArg src (lift_q j q)
  exact congrArg (fun f => Finset.fold max (Ideal.ofBits .f32 0xFF800000#32) f (Finset.univ : Finset (Fin 2048))) hf

/-- THE SOFTMAX OVER THE QUERY AXIS of a 2048 x 256 score matrix S whose column j is the function T of the query:
    entry (q, j) is the exponential of T q less the column's largest, over the sum of the column's such exponentials. -/
theorem softmax_apply (S : FVec Ideal S2048x256 .f32) (q : Fin 2048) (j : Fin 256) (T : Fin 2048 → EReal)
    (hT : ∀ q' : Fin 2048, S (ix2 q' j) = T q') :
    divf (exp (subf S (broadcastTo S2048x256 (shapeCast S1x256 (multiReduction .maximumf [0] S256 S 0xFF800000#32 reduces_S2048x256_S256 (.inl rfl) rfl) shapeCasts_S256_S1x256) broadcasts_S1x256_S2048x256))) (broadcastTo S2048x256 (shapeCast S1x256 (multiReduction .add [0] S256 (exp (subf S (broadcastTo S2048x256 (shapeCast S1x256 (multiReduction .maximumf [0] S256 S 0xFF800000#32 reduces_S2048x256_S256 (.inl rfl) rfl) shapeCasts_S256_S1x256) broadcasts_S1x256_S2048x256))) 0x00000000#32 reduces_S2048x256_S256 (.inl rfl) rfl) shapeCasts_S256_S1x256) broadcasts_S1x256_S2048x256) (ix2 q j)
      = Ideal.div
          (Ideal.exp (T q - (Finset.univ : Finset (Fin 2048)).fold max (Ideal.ofBits .f32 0xFF800000#32) T))
          (∑ q' : Fin 2048, Ideal.exp (T q' - (Finset.univ : Finset (Fin 2048)).fold max (Ideal.ofBits .f32 0xFF800000#32) T)) := by
  have hcol : (fun q'' : Fin 2048 => S (ix2 q'' j)) = T := funext hT
  have hsh : ∀ q' : Fin 2048, (exp (subf S (broadcastTo S2048x256 (shapeCast S1x256 (multiReduction .maximumf [0] S256 S 0xFF800000#32 reduces_S2048x256_S256 (.inl rfl) rfl) shapeCasts_S256_S1x256) broadcasts_S1x256_S2048x256))) (ix2 q' j)
      = Ideal.exp (T q' - (Finset.univ : Finset (Fin 2048)).fold max (Ideal.ofBits .f32 0xFF800000#32) T) := by
    intro q'
    show Ideal.exp (subf S (broadcastTo S2048x256 (shapeCast S1x256 (multiReduction .maximumf [0] S256 S 0xFF800000#32 reduces_S2048x256_S256 (.inl rfl) rfl) shapeCasts_S256_S1x256) broadcasts_S1x256_S2048x256) (ix2 q' j)) = _
    rw [subf_apply, broadcastTo_1b_ab_apply, shapeCast_a_1a_apply, colmax_read, hcol, hT q']
  rw [divf_apply, broadcastTo_1b_ab_apply, shapeCast_a_1a_apply, colsum_read, hsh q]
  exact congrArg (Ideal.div _) (Finset.sum_congr rfl fun q' _ => hsh q')

/-! ## The tile's weights -/

/-- The tile's score of query q against the tile's key j: the scratch row against the key half of the stacked projection. -/
def tscore (xs : FVec Ideal S2048x64 .bf16) (x1 : Vec Ideal S1x256x1024 .f32) (x4 : Vec Ideal S1024x128 .bf16) (x5 : Vec Ideal S1x128 .f32)
    (q : Fin 2048) (j : Fin 256) : EReal :=
  ∑ d : Fin 64, xs (ix2 q d) * k0_pay4 x1 x4 x5 (ix2 j ⟨d.val, by omega⟩)

/-- The largest score of the tile's key j over all the queries. -/
def tmax (xs : FVec Ideal S2048x64 .bf16) (x1 : Vec Ideal S1x256x1024 .f32) (x4 : Vec Ideal S1024x128 .bf16) (x5 : Vec Ideal S1x128 .f32)
    (j : Fin 256) : EReal :=
  (Finset.univ : Finset (Fin 2048)).fold max (Ideal.ofBits .f32 0xFF800000#32) (fun q => tscore xs x1 x4 x5 q j)

/-- The score matrix of the tile, entry (q, j). -/
theorem scores_apply (xs : FVec Ideal S2048x64 .bf16) (x1 : Vec Ideal S1x256x1024 .f32) (x4 : Vec Ideal S1024x128 .bf16) (x5 : Vec Ideal S1x128 .f32)
    (h0 : S256x128.Slices ![0, 0] S256x64) (ht : S256x64.Transposes [1, 0] S64x256) (q : Fin 2048) (j : Fin 256) :
    matmul dot_S2048x64_S64x256_S2048x256_1_0_0_1_n_n none xs
        (transpose S64x256 [1, 0] (extractStridedSlice S256x64 ![0, 0] (k0_pay4 x1 x4 x5) h0) ht)
        (constant S2048x256 .f32 0x00000000#32) (ix2 q j)
      = tscore xs x1 x4 x5 q j := by
  rw [mm_s]
  unfold tscore
  refine Finset.sum_congr rfl fun d _ => ?_
  rw [transpose_ix2_apply, slice2_axis1_apply 0 _ h0 j d ⟨d.val, by omega⟩ (by simp)]

/-- The tile's weights: for each of the tile's keys the softmax of its scores over the 2048 queries. -/
theorem pay6_apply (xs : Vec Ideal S2048x64 .bf16) (x1 : Vec Ideal S1x256x1024 .f32) (x4 : Vec Ideal S1024x128 .bf16) (x5 : Vec Ideal S1x128 .f32)
    (q : Fin 2048) (j : Fin 256) :
    k0_pay6 xs x1 x4 x5 (ix2 q j)
      = Ideal.div (Ideal.exp (tscore xs x1 x4 x5 q j - tmax xs x1 x4 x5 j))
          (∑ q' : Fin 2048, Ideal.exp (tscore xs x1 x4 x5 q' j - tmax xs x1 x4 x5 j)) := by
  unfold k0_pay6
  rw [truncf_apply]
  exact softmax_apply _ q j (fun q' => tscore xs x1 x4 x5 q' j) (fun q' => scores_apply xs x1 x4 x5 _ _ q' j)

end Cert.KernelIdeal.Pay

end
-- ==== Proof.LibERealScale.lean ====
/-
  A finite nonnegative factor moves across a finite sum of extended reals.

  The extended reals are not a semiring: x * (a + b) = x * a + x * b can fail when a and b are infinities of opposite
  signs. It does hold whenever x is nonnegative and finite, for ALL a and b; so such an x distributes over any finite
  sum, and scaling the left factor of every product in a contraction by x scales the whole contraction by x. This is
  what lets a kernel fold a positive dyadic scale (1/8, 1/16, ...) into one operand of a matrix product while its
  reference scales the product, with no finiteness assumption on the data.
-/
import Idealize.ShloMosaic.PureOps.Ideal

namespace Cert.LibERealScale

/-- The product with a finite nonnegative constant distributes over any finite sum of extended reals. -/
theorem mul_sum_of_nonneg {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Scaling the left factor of every product by a finite nonnegative constant scales the contraction by it. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [mul_comm _ c, mul_sum_of_nonneg s _ h0 ht]
  exact Finset.sum_congr rfl fun i _ => by rw [mul_comm (a i) c, mul_assoc]

end Cert.LibERealScale
-- ==== Proof.Spec.lean ====
/-
  Cross-attention with the softmax taken over the QUERY axis, as one function of the ten argument arrays.

  For a batch b, a query row q and a key row k:
    Q[b,q,d]  = (sum over e of x[b,q,e] * Wq[d,e]) + bq[d]
    K[b,k,d]  = (sum over e of y[b,k,e] * Wk[d,e]) + bk[d]
    V[b,k,v]  = (sum over d of ((sum over e of y[b,k,e] * WvR[d,e]) + bvR[d]) * WvL[v,d]) + bvL[v]
    s[b,q,k]  = sum over d of (Q[b,q,d] * (1/8)) * K[b,k,d]
    a[b,q,k]  = exp (s[b,q,k] - max over q' of s[b,q',k]) / (sum over q' of exp (s[b,q',k] - max ...))
    out[b,q,v] = sum over k of a[b,q,k] * V[b,k,v]
  every operation the exact one on the extended reals. The one algebraic law of the certificate is stated here
  too: scaling each query row by 1/8 before the contraction is dividing the contraction by sqrt 64, because a
  product with a finite nonnegative constant distributes over a sum of extended reals whatever the summands are
  (that distributivity is the general lemma of LibERealScale).
-/
import Idealize.ShloMosaic.PureOps.Ideal
import Idealize.ShloMosaic.Lib.ValueIdx
import proofs.«150910_j72275709657317_2_alg».proof.Proof.LibERealScale

noncomputable section

namespace Cert.Attn

open Idealize.ShloMosaic Idealize.ShloMosaic.ValueIdx

/-! ## The constants -/

/-- The word 0x3E000000 is one eighth. -/
theorem ofBits_eighth : Ideal.ofBits .f32 0x3E000000#32 = ((1 / 8 : ℝ) : EReal) := by
  simp [Ideal.ofBits, Ideal.ieee, -EReal.coe_mul]; norm_num

/-- The word 0x42800000 is sixty-four. -/
theorem ofBits_64 : Ideal.ofBits .f32 0x42800000#32 = ((64 : ℝ) : EReal) := by
  simp [Ideal.ofBits, Ideal.ieee, -EReal.coe_mul]; norm_num

/-- The word 0xFF800000 is minus infinity, the bottom of the extended reals. -/
theorem ofBits_negInf : Ideal.ofBits .f32 0xFF800000#32 = (⊥ : EReal) := by
  simp [Ideal.ofBits, Ideal.ieee]

/-- The word 0 is zero. -/
theorem ofBits_zero : Ideal.ofBits .f32 0x00000000#32 = (0 : EReal) := by
  simp [Ideal.ofBits, Ideal.ieee]

/-- The square root of sixty-four is eight. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num)]
  have h : Real.sqrt 64 = 8 := by
    rw [show (64 : ℝ) = 8 ^ 2 by norm_num]
    exact Real.sqrt_sq (by norm_num)
  rw [h]

/-! ## The arrays and the function -/

abbrev A3 : Type := (⟨3, ![4, 2048, 1024]⟩ : Shape).Idx → EReal
abbrev AW : Type := (⟨2, ![64, 1024]⟩ : Shape).Idx → EReal
abbrev AB : Type := (⟨1, ![64]⟩ : Shape).Idx → EReal
abbrev AWL : Type := (⟨2, ![1024, 64]⟩ : Shape).Idx → EReal
abbrev ABL : Type := (⟨1, ![1024]⟩ : Shape).Idx → EReal

/-- A row of one batch of `z` against a row of `W`, plus the bias: a 64-wide linear projection of the 1024-wide row. -/
def proj (z : A3) (W : AW) (bias : AB) (b : Fin 4) (s : Fin 2048) (d : Fin 64) : EReal :=
  (∑ e : Fin 1024, z (ix3 b s e) * W (ix2 d e)) + bias (ix1 d)

variable (x y : A3) (Wq : AW) (bq : AB) (Wk : AW) (bk : AB) (WvR : AW) (bvR : AB) (WvL : AWL) (bvL : ABL)

/-- The value row of key `k`: its 64-wide projection taken back up to 1024 wide. -/
def vals (b : Fin 4) (k : Fin 2048) (v : Fin 1024) : EReal :=
  (∑ d : Fin 64, proj y WvR bvR b k d * WvL (ix2 v d)) + bvL (ix1 v)

/-- The score of query `q` against key `k`, the query row scaled by one eighth first. -/
def score (b : Fin 4) (q k : Fin 2048) : EReal :=
  ∑ d : Fin 64, (proj x Wq bq b q d * Ideal.ofBits .f32 0x3E000000#32) * proj y Wk bk b k d

/-- The largest score of key `k` over all the queries. -/
def colmax (b : Fin 4) (k : Fin 2048) : EReal :=
  (Finset.univ : Finset (Fin 2048)).fold max (Ideal.ofBits .f32 0xFF800000#32) (fun q => score x y Wq bq Wk bk b q k)

/-- The exponential of a score less its key's largest. -/
def expo (b : Fin 4) (q k : Fin 2048) : EReal :=
  Ideal.exp (score x y Wq bq Wk bk b q k - colmax x y Wq bq Wk bk b k)

/-- The sum of key `k`'s exponentials over all the queries. -/
def colsum (b : Fin 4) (k : Fin 2048) : EReal :=
  ∑ q : Fin 2048, expo x y Wq bq Wk bk b q k

/-- The attention weight: the softmax over the query axis. -/
def attn (b : Fin 4) (q k : Fin 2048) : EReal :=
  Ideal.div (expo x y Wq bq Wk bk b q k) (colsum x y Wq bq Wk bk b k)

/-- The output entry: the weights of query `q` against every key's value row. -/
def out (b : Fin 4) (q : Fin 2048) (v : Fin 1024) : EReal :=
  ∑ k : Fin 2048, attn x y Wq bq Wk bk b q k * vals y WvR bvR WvL bvL b k v

/-- The whole result array. -/
def G : A3 := fun i => out x y Wq bq Wk bk WvR bvR WvL bvL (i 0) (i 1) (i 2)

/-- THE LAW. The score with the query row scaled by one eighth is the unscaled contraction divided by the square
    root of sixty-four. -/
theorem score_eq_div (b : Fin 4) (q k : Fin 2048) :
    score x y Wq bq Wk bk b q k
      = Ideal.div (∑ d : Fin 64, proj x Wq bq b q d * proj y Wk bk b k d) (Ideal.sqrt (Ideal.ofBits .f32 0x42800000#32)) := by
  unfold score
  rw [ofBits_64, sqrt_64, Ideal.div_coe (by norm_num : (8 : ℝ) ≠ 0), ofBits_eighth]
  exact Cert.LibERealScale.sum_scaled_mul _ _ _ (by exact_mod_cast (by norm_num : (0 : ℝ) ≤ 1 / 8)) (EReal.coe_ne_top _)

end Cert.Attn

end
-- ==== Proof.TileMath.lean ====
/-
  One grid point's arithmetic in the vocabulary of the specification.

  Suppose the blocks a grid point reads hold what they should: the x block the rows of batch b of x, the y tile the key
  rows kk 0 .. kk 255 of batch b of y, the weight blocks Wq^T, [Wk^T | WvR^T], WvL^T, the bias blocks bq, [bk | bvR],
  bvL, and the scratch the scaled query projection of batch b. Then the stacked projection's two halves are the key and
  the 64-wide value projections of those key rows, the tile's value rows are the value rows of those keys, the tile's
  scores, column maxima, column sums and weights are those of the specification at the keys kk j, and the body's new
  output entry is the old one plus the 256 terms (weight * value) of the tile's keys.
-/
import proofs.«150910_j72275709657317_2_alg».proof.Proof.Payload
import proofs.«150910_j72275709657317_2_alg».proof.Proof.Spec

noncomputable section

namespace Cert.KernelIdeal.Tile

open Cert.KernelIdeal Cert.KernelIdeal.Gen Cert.KernelIdeal.Pay Cert.Attn Idealize.ShloMosaic Idealize.ShloMosaic.ValueIdx

variable (X Y : A3) (Wq : AW) (bq : AB) (Wk : AW) (bk : AB) (WvR : AW) (bvR : AB) (WvL : AWL) (bvL : ABL)
variable (b : Fin 4) (kk : Fin 256 → Fin 2048)

/-- The scaled query projection the first key tile stores: batch b's query rows projected and scaled by one eighth. -/
theorem qs_of (x0 : Vec Ideal S1x2048x1024 .f32) (x2 : Vec Ideal S1024x64 .bf16) (x3 : Vec Ideal S1x64 .f32)
    (h0 : ∀ (u : Fin 1) (q : Fin 2048) (e : Fin 1024), x0 (ix3 u q e) = X (ix3 b q e))
    (h2 : ∀ (e : Fin 1024) (d : Fin 64), x2 (ix2 e d) = Wq (ix2 d e))
    (h3 : ∀ (u : Fin 1) (d : Fin 64), x3 (ix2 u d) = bq (ix1 d))
    (q : Fin 2048) (d : Fin 64) :
    k0_pay2 x0 x2 x3 (ix2 q d) = proj X Wq bq b q d * Ideal.ofBits .f32 0x3E000000#32 := by
  rw [pay2_apply]
  unfold proj
  simp only [h0, h2, h3]

section Tile

variable (x1 : Vec Ideal S1x256x1024 .f32) (x4 : Vec Ideal S1024x128 .bf16) (x5 : Vec Ideal S1x128 .f32)
  (x6 : Vec Ideal S64x1024 .bf16) (x7 : Vec Ideal S1x1024 .f32)
  (h1 : ∀ (u : Fin 1) (j : Fin 256) (e : Fin 1024), x1 (ix3 u j e) = Y (ix3 b (kk j) e))
  (h4lo : ∀ (e : Fin 1024) (d : Fin 64), x4 (ix2 e ⟨d.val, by omega⟩) = Wk (ix2 d e))
  (h4hi : ∀ (e : Fin 1024) (d : Fin 64), x4 (ix2 e ⟨64 + d.val, by omega⟩) = WvR (ix2 d e))
  (h5lo : ∀ (u : Fin 1) (d : Fin 64), x5 (ix2 u ⟨d.val, by omega⟩) = bk (ix1 d))
  (h5hi : ∀ (u : Fin 1) (d : Fin 64), x5 (ix2 u ⟨64 + d.val, by omega⟩) = bvR (ix1 d))
  (h6 : ∀ (d : Fin 64) (v : Fin 1024), x6 (ix2 d v) = WvL (ix2 v d))
  (h7 : ∀ (u : Fin 1) (v : Fin 1024), x7 (ix2 u v) = bvL (ix1 v))

include h1 h4lo h5lo in
/-- The lower half of the stacked projection is the key projection of the tile's key rows. -/
theorem kv_lo (j : Fin 256) (d : Fin 64) :
    k0_pay4 x1 x4 x5 (ix2 j ⟨d.val, by omega⟩) = proj Y Wk bk b (kk j) d := by
  rw [pay4_apply]
  unfold proj
  simp only [h1, h4lo, h5lo]

include h1 h4hi h5hi in
/-- The upper half is the 64-wide value projection of the tile's key rows. -/
theorem kv_hi (j : Fin 256) (d : Fin 64) :
    k0_pay4 x1 x4 x5 (ix2 j ⟨64 + d.val, by omega⟩) = proj Y WvR bvR b (kk j) d := by
  rw [pay4_apply]
  unfold proj
  simp only [h1, h4hi, h5hi]

include h1 h4hi h5hi h6 h7 in
/-- The tile's value rows are the value rows of the tile's keys. -/
theorem vt_of (j : Fin 256) (v : Fin 1024) :
    k0_pay5 x1 x4 x5 x6 x7 (ix2 j v) = vals Y WvR bvR WvL bvL b (kk j) v := by
  rw [pay5_apply]
  unfold vals
  simp only [kv_hi Y WvR bvR b kk x1 x4 x5 h1 h4hi h5hi, h6, h7]

variable (xs : Vec Ideal S2048x64 .bf16)
  (hs : ∀ (q : Fin 2048) (d : Fin 64), xs (ix2 q d) = proj X Wq bq b q d * Ideal.ofBits .f32 0x3E000000#32)

include h1 h4lo h5lo hs in
/-- The tile's scores are the specification's scores against the tile's keys. -/
theorem tscore_of (q : Fin 2048) (j : Fin 256) :
    tscore xs x1 x4 x5 q j = score X Y Wq bq Wk bk b q (kk j) := by
  unfold tscore score
  simp only [hs, kv_lo Y Wk bk b kk x1 x4 x5 h1 h4lo h5lo]

include h1 h4lo h5lo hs in
/-- The tile's weights are the specification's weights against the tile's keys. -/
theorem w_of (q : Fin 2048) (j : Fin 256) :
    k0_pay6 xs x1 x4 x5 (ix2 q j) = attn X Y Wq bq Wk bk b q (kk j) := by
  rw [pay6_apply]
  unfold attn colsum expo colmax tmax
  simp only [tscore_of X Y Wq bq Wk bk b kk x1 x4 x5 h1 h4lo h5lo xs hs]

include h1 h4lo h4hi h5lo h5hi h6 h7 hs in
/-- THE GRID POINT'S STEP: the new output entry is the old one plus the tile's 256 terms. -/
theorem step_of (old : Vec Ideal S1x2048x1024 .f32) (u : Fin 1) (q : Fin 2048) (v : Fin 1024) :
    k0_pay1 (k0_pay5 x1 x4 x5 x6 x7) (k0_pay6 xs x1 x4 x5) old (ix3 u q v)
      = old (ix3 (0 : Fin 1) q v)
        + ∑ j : Fin 256, attn X Y Wq bq Wk bk b q (kk j) * vals Y WvR bvR WvL bvL b (kk j) v := by
  rw [pay1_apply]
  simp only [w_of X Y Wq bq Wk bk b kk x1 x4 x5 h1 h4lo h5lo xs hs,
    vt_of Y WvR bvR WvL bvL b kk x1 x4 x5 x6 x7 h1 h4hi h5hi h6 h7]

end Tile

end Cert.KernelIdeal.Tile

end
-- ==== Proof.Blocks.lean ====
/-
  Where each window's block sits in its array. The grid is 4 batches by 8 key tiles, walked batch-major: point t is
  batch t / 8, key tile t % 8. The x window and the output window hold the whole 2048 x 1024 slab of batch t / 8;
  the y window holds rows 256 * (t % 8) .. 256 * (t % 8) + 255 of that batch; every weight and bias window holds
  its whole array at every point.
-/
import proofs.«150910_j72275709657317_2_alg».proof.Proof.Gen.KernelIdeal.Frame
import Idealize.ShloMosaic.Lib.ValueIdx
import Idealize.ShloMosaic.Lib.Pipeline.Value

noncomputable section

namespace Cert.KernelIdeal.Blk

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-- The windows' block indices at every grid point, decided over the 32 points. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val / 8 ∧ win0_8.index t (1 : Fin 3) = 0 ∧ win0_8.index t (2 : Fin 3) = 0 :=
  (by decide +kernel : ∀ t : Fin grid0.N, _)

/-- The batch of grid point t. -/
def bOf (t : Fin cfg0.N) : Fin 4 := ⟨t.val / 8, by have h := t.isLt; have hN : cfg0.N = 32 := N_0; omega⟩

/-- The key row, within its batch, of row j of grid point t's key tile. -/
def kOf (t : Fin cfg0.N) (j : Fin 256) : Fin 2048 :=
  ⟨t.val % 8 * 256 + j.val, by have h := j.isLt; have h8 := Nat.mod_lt t.val (by norm_num : 0 < 8); omega⟩

/-- The x window at point t reads batch t / 8 of x. -/
theorem blk0 (c : Dev nD) (t : Fin cfg0.N) (u : Fin 1) (q : Fin 2048) (e : Fin 1024) :
    iblk m c 0 t (ix3 u q e) = m ((c : Thread nD τ).loc main_arg0) (ix3 (bOf t) q e) := by
  obtain ⟨e0, e1, e2, -⟩ := idx_facts t
  show V m c main_arg0 (((cfg0.win 0).blk t).view.emb (ix3 u q e)) = _
  have h : ((cfg0.win 0).blk t).view.emb (ix3 u q e) = ix3 (bOf t) q e := by
    funext a; apply Fin.ext
    match a with
    | ⟨0, _⟩ => show win0_0.index t (0 : Fin 3) * 1 + 1 * u.val = t.val / 8; have := u.isLt; omega
    | ⟨1, _⟩ => show win0_0.index t (1 : Fin 3) * 2048 + 1 * q.val = q.val; omega
    | ⟨2, _⟩ => show win0_0.index t (2 : Fin 3) * 1024 + 1 * e.val = e.val; omega
  rw [h, V_main_arg0]

/-- The y window at point t reads rows 256 * (t % 8) + j of batch t / 8 of y. -/
theorem blk1 (c : Dev nD) (t : Fin cfg0.N) (u : Fin 1) (j : Fin 256) (e : Fin 1024) :
    iblk m c 1 t (ix3 u j e) = m ((c : Thread nD τ).loc main_arg1) (ix3 (bOf t) (kOf t j) e) := by
  obtain ⟨-, -, -, e0, e1, e2, -⟩ := idx_facts t
  show V m c main_arg1 (((cfg0.win 1).blk t).view.emb (ix3 u j e)) = _
  have h : ((cfg0.win 1).blk t).view.emb (ix3 u j e) = ix3 (bOf t) (kOf t j) e := by
    funext a; apply Fin.ext
    match a with
    | ⟨0, _⟩ => show win0_1.index t (0 : Fin 3) * 1 + 1 * u.val = t.val / 8; have := u.isLt; omega
    | ⟨1, _⟩ => show win0_1.index t (1 : Fin 3) * 256 + 1 * j.val = t.val % 8 * 256 + j.val; omega
    | ⟨2, _⟩ => show win0_1.index t (2 : Fin 3) * 1024 + 1 * e.val = e.val; omega
  rw [h, V_main_arg1]

/-- Window 2's block is the whole of its array at every grid point. -/
theorem blk2 (c : Dev nD) (t : Fin cfg0.N) (e : Fin 1024) (d : Fin 64) :
    iblk m c 2 t (ix2 e d) = V m c main_call0_v1 (ix2 e d) := by
  obtain ⟨-, -, -, -, -, -, e0, e1, -⟩ := idx_facts t
  show V m c main_call0_v1 (((cfg0.win 2).blk t).view.emb (ix2 e d)) = _
  have h : ((cfg0.win 2).blk t).view.emb (ix2 e d) = ix2 e d := by
    funext a; apply Fin.ext
    match a with
    | ⟨0, _⟩ => show win0_2.index t (0 : Fin 2) * 1024 + 1 * e.val = e.val; omega
    | ⟨1, _⟩ => show win0_2.index t (1 : Fin 2) * 64 + 1 * d.val = d.val; omega
  rw [h]

/-- Window 3's block is the whole of its array at every grid point. -/
theorem blk3 (c : Dev nD) (t : Fin cfg0.N) (u : Fin 1) (d : Fin 64) :
    iblk m c 3 t (ix2 u d) = V m c main_call0_v8 (ix2 u d) := by
  obtain ⟨-, -, -, -, -, -, -, -, e0, e1, -⟩ := idx_facts t
  show V m c main_call0_v8 (((cfg0.win 3).blk t).view.emb (ix2 u d)) = _
  have h : ((cfg0.win 3).blk t).view.emb (ix2 u d) = ix2 u d := by
    funext a; apply Fin.ext
    match a with
    | ⟨0, _⟩ => show win0_3.index t (0 : Fin 2) * 1 + 1 * u.val = u.val; omega
    | ⟨1, _⟩ => show win0_3.index t (1 : Fin 2) * 64 + 1 * d.val = d.val; omega
  rw [h]

/-- Window 4's block is the whole of its array at every grid point. -/
theorem blk4 (c : Dev nD) (t : Fin cfg0.N) (e : Fin 1024) (n : Fin 128) :
    iblk m c 4 t (ix2 e n) = V m c main_call0_v5 (ix2 e n) := by
  obtain ⟨-, -, -, -, -, -, -, -, -, -, e0, e1, -⟩ := idx_facts t
  show V m c main_call0_v5 (((cfg0.win 4).blk t).view.emb (ix2 e n)) = _
  have h : ((cfg0.win 4).blk t).view.emb (ix2 e n) = ix2 e n := by
    funext a; apply Fin.ext
    match a with
    | ⟨0, _⟩ => show win0_4.index t (0 : Fin 2) * 1024 + 1 * e.val = e.val; omega
    | ⟨1, _⟩ => show win0_4.index t (1 : Fin 2) * 128 + 1 * n.val = n.val; omega
  rw [h]

/-- Window 5's block is the whole of its array at every grid point. -/
theorem blk5 (c : Dev nD) (t : Fin cfg0.N) (u : Fin 1) (n : Fin 128) :
    iblk m c 5 t (ix2 u n) = V m c main_call0_v10 (ix2 u n) := by
  obtain ⟨-, -, -, -, -, -, -, -, -, -, -, -, e0, e1, -⟩ := idx_facts t
  show V m c main_call0_v10 (((cfg0.win 5).blk t).view.emb (ix2 u n)) = _
  have h : ((cfg0.win 5).blk t).view.emb (ix2 u n) = ix2 u n := by
    funext a; apply Fin.ext
    match a with
    | ⟨0, _⟩ => show win0_5.index t (0 : Fin 2) * 1 + 1 * u.val = u.val; omega
    | ⟨1, _⟩ => show win0_5.index t (1 : Fin 2) * 128 + 1 * n.val = n.val; omega
  rw [h]

/-- Window 6's block is the whole of its array at every grid point. -/
theorem blk6 (c : Dev nD) (t : Fin cfg0.N) (d : Fin 64) (v : Fin 1024) :
    iblk m c 6 t (ix2 d v) = V m c main_call0_v7 (ix2 d v) := by
  obtain ⟨-, -, -, -, -, -, -, -, -, -, -, -, -, -, e0, e1, -⟩ := idx_facts t
  show V m c main_call0_v7 (((cfg0.win 6).blk t).view.emb (ix2 d v)) = _
  have h : ((cfg0.win 6).blk t).view.emb (ix2 d v) = ix2 d v := by
    funext a; apply Fin.ext
    match a with
    | ⟨0, _⟩ => show win0_6.index t (0 : Fin 2) * 64 + 1 * d.val = d.val; omega
    | ⟨1, _⟩ => show win0_6.index t (1 : Fin 2) * 1024 + 1 * v.val = v.val; omega
  rw [h]

/-- Window 7's block is the whole of its array at every grid point. -/
theorem blk7 (c : Dev nD) (t : Fin cfg0.N) (u : Fin 1) (v : Fin 1024) :
    iblk m c 7 t (ix2 u v) = V m c main_call0_v11 (ix2 u v) := by
  obtain ⟨-, -, -, -, -, -, -, -, -, -, -, -, -, -, -, -, e0, e1, -⟩ := idx_facts t
  show V m c main_call0_v11 (((cfg0.win 7).blk t).view.emb (ix2 u v)) = _
  have h : ((cfg0.win 7).blk t).view.emb (ix2 u v) = ix2 u v := by
    funext a; apply Fin.ext
    match a with
    | ⟨0, _⟩ => show win0_7.index t (0 : Fin 2) * 1 + 1 * u.val = u.val; omega
    | ⟨1, _⟩ => show win0_7.index t (1 : Fin 2) * 1024 + 1 * v.val = v.val; omega
  rw [h]

/-- The output window's block at point t sits at batch t / 8 of the result array. -/
theorem emb8 (t : Fin cfg0.N) (u : Fin 1) (q : Fin 2048) (v : Fin 1024) :
    ((cfg0.win 8).blk t).view.emb (ix3 u q v) = ix3 (bOf t) q v := by
  obtain ⟨-, -, -, -, -, -, -, -, -, -, -, -, -, -, -, -, -, -, e0, e1, e2⟩ := idx_facts t
  funext a; apply Fin.ext
  match a with
  | ⟨0, _⟩ => show win0_8.index t (0 : Fin 3) * 1 + 1 * u.val = t.val / 8; have := u.isLt; omega
  | ⟨1, _⟩ => show win0_8.index t (1 : Fin 3) * 2048 + 1 * q.val = q.val; omega
  | ⟨2, _⟩ => show win0_8.index t (2 : Fin 3) * 1024 + 1 * v.val = v.val; omega

end Cert.KernelIdeal.Blk

end
-- ==== Proof.HostArrays.lean ====
/-
  What the six prepared arrays hold, read at an index, in terms of the argument arrays.

  The three weight matrices are transposed (the key and the inner value weights side by side, the key weight in
  columns 0..63 and the inner value weight in columns 64..127), the biases become rows (the key and the inner
  value biases end to end), and a change of number format is the identity on the exact values.
-/
import proofs.«150910_j72275709657317_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostArr

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (c : Dev nD)

/-! ## The arrays as terms of the argument arrays -/

/-- The first prepared array is the query weight transposed. -/
theorem v1_term : (V m c main_call0_v1 : S1024x64.Idx → EReal)
    = (truncf .bf16 (transpose S1024x64 [1, 0] (m ((c : Thread nD τ).loc main_arg2)) Facts₀.transposes_S64x1024_S1024x64_1_0 : FVec Ideal S1024x64 .f32) Facts₀.bitsLt_bf16_f32 : FVec Ideal S1024x64 .bf16) := by
  dsimp only [Gen.V, Gen.hostOps0]; after_results; rfl

/-- The second is the key weight transposed beside the inner value weight transposed. -/
theorem v5_term : (V m c main_call0_v5 : S1024x128.Idx → EReal)
    = (truncf .bf16 (concatenate S1024x128 1
          [⟨S1024x64, transpose S1024x64 [1, 0] (m ((c : Thread nD τ).loc main_arg4)) Facts₀.transposes_S64x1024_S1024x64_1_0⟩,
           ⟨S1024x64, transpose S1024x64 [1, 0] (m ((c : Thread nD τ).loc main_arg6)) Facts₀.transposes_S64x1024_S1024x64_1_0⟩]
          Facts₀.concatenates_S1024x64_S1024x64_S1024x128_d1 : FVec Ideal S1024x128 .f32) Facts₀.bitsLt_bf16_f32 : FVec Ideal S1024x128 .bf16) := by
  dsimp only [Gen.V, Gen.hostOps0]; after_results; rfl

/-- The third is the outer value weight transposed. -/
theorem v7_term : (V m c main_call0_v7 : S64x1024.Idx → EReal)
    = (truncf .bf16 (transpose S64x1024 [1, 0] (m ((c : Thread nD τ).loc main_arg8)) Facts₀.transposes_S1024x64_S64x1024_1_0 : FVec Ideal S64x1024 .f32) Facts₀.bitsLt_bf16_f32 : FVec Ideal S64x1024 .bf16) := by
  dsimp only [Gen.V, Gen.hostOps0]; after_results; rfl

/-- The fourth is the query bias as a row. -/
theorem v8_term : (V m c main_call0_v8 : S1x64.Idx → EReal)
    = shapeCast S1x64 (m ((c : Thread nD τ).loc main_arg3)) Facts₀.shapeCasts_S64_S1x64 := by
  dsimp only [Gen.V, Gen.hostOps0]; after_results; rfl

/-- The fifth is the key bias and the inner value bias end to end, as a row. -/
theorem v10_term : (V m c main_call0_v10 : S1x128.Idx → EReal)
    = shapeCast S1x128 (concatenate S128 0
          [⟨S64, m ((c : Thread nD τ).loc main_arg5)⟩, ⟨S64, m ((c : Thread nD τ).loc main_arg7)⟩]
          Facts₀.concatenates_S64_S64_S128_d0) Facts₀.shapeCasts_S128_S1x128 := by
  dsimp only [Gen.V, Gen.hostOps0]; after_results; rfl

/-- The sixth is the outer value bias as a row. -/
theorem v11_term : (V m c main_call0_v11 : S1x1024.Idx → EReal)
    = shapeCast S1x1024 (m ((c : Thread nD τ).loc main_arg9)) Facts₀.shapeCasts_S1024_S1x1024 := by
  dsimp only [Gen.V, Gen.hostOps0]; after_results; rfl

/-! ## The arrays at an index -/

/-- The query weight transposed: entry (e, d) is the weight's entry (d, e). -/
theorem v1_apply (e : Fin 1024) (d : Fin 64) :
    (V m c main_call0_v1 : S1024x64.Idx → EReal) (ix2 e d) = m ((c : Thread nD τ).loc main_arg2) (ix2 d e) := by
  rw [v1_term, truncf_apply, transpose_ix2_apply]

/-- The query bias as a row: entry (0, d) is the bias's entry d. -/
theorem v8_apply (u : Fin 1) (d : Fin 64) :
    (V m c main_call0_v8 : S1x64.Idx → EReal) (ix2 u d) = m ((c : Thread nD τ).loc main_arg3) (ix1 d) := by
  rw [v8_term, shapeCast_a_1a_apply]

/-- Columns 0..63 of the second array: the key weight transposed. -/
theorem v5_apply_lo (e : Fin 1024) (d : Fin 64) :
    (V m c main_call0_v5 : S1024x128.Idx → EReal) (ix2 e ⟨d.val, by omega⟩) = m ((c : Thread nD τ).loc main_arg4) (ix2 d e) := by
  rw [v5_term, truncf_apply]
  refine (concatenate_pair_apply_left (t := S1024x128) (s₁ := S1024x64) (s₂ := S1024x64) (1 : Fin 2) _ _ _ _ rfl (ix2 e d) fun b => ?_).trans (transpose_ix2_apply _ _ e d)
  match b with | ⟨0, _⟩ => rfl | ⟨1, _⟩ => rfl

/-- Columns 64..127 of the second array: the inner value weight transposed. -/
theorem v5_apply_hi (e : Fin 1024) (d : Fin 64) :
    (V m c main_call0_v5 : S1024x128.Idx → EReal) (ix2 e ⟨64 + d.val, by omega⟩) = m ((c : Thread nD τ).loc main_arg6) (ix2 d e) := by
  rw [v5_term, truncf_apply]
  refine (concatenate_pair_apply_right (t := S1024x128) (s₁ := S1024x64) (s₂ := S1024x64) (1 : Fin 2) _ _ _ _ rfl rfl (ix2 e d) (fun b hb => ?_) ?_).trans (transpose_ix2_apply _ _ e d)
  · match b, hb with
    | ⟨0, _⟩, _ => rfl
    | ⟨1, _⟩, hb => exact absurd rfl hb
  · show d.val + 64 = 64 + d.val
    exact Nat.add_comm _ _

/-- Columns 0..63 of the fifth array: the key bias. -/
theorem v10_apply_lo (u : Fin 1) (d : Fin 64) :
    (V m c main_call0_v10 : S1x128.Idx → EReal) (ix2 u ⟨d.val, by omega⟩) = m ((c : Thread nD τ).loc main_arg5) (ix1 d) := by
  rw [v10_term, shapeCast_a_1a_apply]
  refine concatenate_pair_apply_left (t := S128) (s₁ := S64) (s₂ := S64) (0 : Fin 1) _ _ _ _ rfl (ix1 d) fun b => ?_
  match b with | ⟨0, _⟩ => rfl

/-- Columns 64..127 of the fifth array: the inner value bias. -/
theorem v10_apply_hi (u : Fin 1) (d : Fin 64) :
    (V m c main_call0_v10 : S1x128.Idx → EReal) (ix2 u ⟨64 + d.val, by omega⟩) = m ((c : Thread nD τ).loc main_arg7) (ix1 d) := by
  rw [v10_term, shapeCast_a_1a_apply]
  refine concatenate_pair_apply_right (t := S128) (s₁ := S64) (s₂ := S64) (0 : Fin 1) _ _ _ _ rfl rfl (ix1 d) (fun b hb => ?_) ?_
  · match b, hb with
    | ⟨0, _⟩, hb => exact absurd rfl hb
  · show d.val + 64 = 64 + d.val
    exact Nat.add_comm _ _

/-- The outer value weight transposed: entry (d, v) is the weight's entry (v, d). -/
theorem v7_apply (d : Fin 64) (v : Fin 1024) :
    (V m c main_call0_v7 : S64x1024.Idx → EReal) (ix2 d v) = m ((c : Thread nD τ).loc main_arg8) (ix2 v d) := by
  rw [v7_term, truncf_apply, transpose_ix2_apply]

/-- The outer value bias as a row: entry (0, v) is the bias's entry v. -/
theorem v11_apply (u : Fin 1) (v : Fin 1024) :
    (V m c main_call0_v11 : S1x1024.Idx → EReal) (ix2 u v) = m ((c : Thread nD τ).loc main_arg9) (ix1 v) := by
  rw [v11_term, shapeCast_a_1a_apply]

end Cert.KernelIdeal.HostArr

end
-- ==== Proof.Partial.lean ====
/-
  The output entry as a running sum over the keys.

  out[b,q,v] is a sum over the 2048 keys of weight * value. Walking the keys tile by tile (256 at a time) the sum
  over the first (kt + 1) tiles is the sum over the first kt tiles plus the tile's own 256 terms; after the eighth
  tile it is the whole sum. Only associativity and commutativity of addition are used, so this holds for any
  extended reals.
-/
import proofs.«150910_j72275709657317_2_alg».proof.Proof.Spec

noncomputable section

namespace Cert.Attn

open Idealize.ShloMosaic Idealize.ShloMosaic.ValueIdx

variable (x y : A3) (Wq : AW) (bq : AB) (Wk : AW) (bk : AB) (WvR : AW) (bvR : AB) (WvL : AWL) (bvL : ABL)

/-- The term of key number k in the output entry (b, q, v); zero past the last key. -/
def term (b : Fin 4) (q : Fin 2048) (v : Fin 1024) (k : ℕ) : EReal :=
  if h : k < 2048 then attn x y Wq bq Wk bk b q ⟨k, h⟩ * vals y WvR bvR WvL bvL b ⟨k, h⟩ v else 0

/-- The sum of the first n keys' terms. -/
def psum (b : Fin 4) (q : Fin 2048) (v : Fin 1024) (n : ℕ) : EReal :=
  ∑ k ∈ Finset.range n, term x y Wq bq Wk bk WvR bvR WvL bvL b q v k

/-- All 2048 terms make the output entry. -/
theorem psum_all (b : Fin 4) (q : Fin 2048) (v : Fin 1024) :
    psum x y Wq bq Wk bk WvR bvR WvL bvL b q v 2048 = out x y Wq bq Wk bk WvR bvR WvL bvL b q v := by
  unfold psum out
  rw [Finset.sum_range]
  refine Finset.sum_congr rfl fun k _ => ?_
  unfold term
  rw [dif_pos k.isLt]

/-- One more tile: the first kt tiles' sum plus the 256 terms of tile kt. -/
theorem psum_tile (b : Fin 4) (q : Fin 2048) (v : Fin 1024) (kt : ℕ) (hkt : kt < 8) :
    psum x y Wq bq Wk bk WvR bvR WvL bvL b q v ((kt + 1) * 256)
      = psum x y Wq bq Wk bk WvR bvR WvL bvL b q v (kt * 256)
        + ∑ j : Fin 256, attn x y Wq bq Wk bk b q ⟨kt * 256 + j.val, by have := j.isLt; omega⟩
            * vals y WvR bvR WvL bvL b ⟨kt * 256 + j.val, by have := j.isLt; omega⟩ v := by
  unfold psum
  rw [show (kt + 1) * 256 = kt * 256 + 256 by ring, Finset.sum_range_add]
  refine congrArg _ ?_
  rw [Finset.sum_range]
  refine Finset.sum_congr rfl fun j _ => ?_
  unfold term
  rw [dif_pos (by have := j.isLt; omega)]

/-- The same with the tile's keys named by a map kk (key kk j is number kt * 256 + j) and the two counts free. -/
theorem psum_step (b : Fin 4) (q : Fin 2048) (v : Fin 1024) (kt : ℕ) (hkt : kt < 8) (kk : Fin 256 → Fin 2048)
    (hkk : ∀ j : Fin 256, (kk j).val = kt * 256 + j.val) (n0 n1 : ℕ) (h0 : n0 = kt * 256) (h1 : n1 = (kt + 1) * 256) :
    psum x y Wq bq Wk bk WvR bvR WvL bvL b q v n0
        + ∑ j : Fin 256, attn x y Wq bq Wk bk b q (kk j) * vals y WvR bvR WvL bvL b (kk j) v
      = psum x y Wq bq Wk bk WvR bvR WvL bvL b q v n1 := by
  subst h0 h1
  rw [psum_tile x y Wq bq Wk bk WvR bvR WvL bvL b q v kt hkt]
  refine congrArg _ (Finset.sum_congr rfl fun j _ => ?_)
  have e : kk j = ⟨kt * 256 + j.val, by have := j.isLt; omega⟩ := Fin.ext (hkk j)
  rw [e]

/-- Before the first tile the running sum is zero. -/
theorem psum_zero (b : Fin 4) (q : Fin 2048) (v : Fin 1024) :
    psum x y Wq bq Wk bk WvR bvR WvL bvL b q v 0 = 0 := by
  unfold psum
  rw [Finset.range_zero, Finset.sum_empty]

end Cert.Attn

end
-- ==== Proof.Inv.lean ====
/-
  What the output block and the scratch hold after every grid point, by induction along the grid.

  After the point (batch b, key tile kt) the scratch holds the scaled query projection of batch b, and the output block
  holds, at (q, v), the sum of the terms weight * value of the first (kt + 1) * 256 keys of batch b. At the first key
  tile of a batch the scratch is written afresh and the block restarts from zero; at a later tile the scratch is what
  the tile before left and the block gains the tile's 256 terms.
-/
import proofs.«150910_j72275709657317_2_alg».proof.Proof.Pieces
import proofs.«150910_j72275709657317_2_alg».proof.Proof.TileMath
import proofs.«150910_j72275709657317_2_alg».proof.Proof.Blocks
import proofs.«150910_j72275709657317_2_alg».proof.Proof.HostArrays
import proofs.«150910_j72275709657317_2_alg».proof.Proof.Partial

noncomputable section

namespace Cert.KernelIdeal.Run

open Cert.KernelIdeal Cert.KernelIdeal.Gen Cert.KernelIdeal.Blk Cert.KernelIdeal.Tile Cert.KernelIdeal.Pay Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The ten argument arrays as launched, on core c. -/
abbrev aX (c : Dev nD) : A3 := m ((c : Thread nD τ).loc main_arg0)
abbrev aY (c : Dev nD) : A3 := m ((c : Thread nD τ).loc main_arg1)
abbrev aWq (c : Dev nD) : AW := m ((c : Thread nD τ).loc main_arg2)
abbrev abq (c : Dev nD) : AB := m ((c : Thread nD τ).loc main_arg3)
abbrev aWk (c : Dev nD) : AW := m ((c : Thread nD τ).loc main_arg4)
abbrev abk (c : Dev nD) : AB := m ((c : Thread nD τ).loc main_arg5)
abbrev aWvR (c : Dev nD) : AW := m ((c : Thread nD τ).loc main_arg6)
abbrev abvR (c : Dev nD) : AB := m ((c : Thread nD τ).loc main_arg7)
abbrev aWvL (c : Dev nD) : AWL := m ((c : Thread nD τ).loc main_arg8)
abbrev abvL (c : Dev nD) : ABL := m ((c : Thread nD τ).loc main_arg9)

/-! ## What the blocks of a point hold, in terms of the argument arrays -/

theorem hb0 (c : Dev nD) (t : Fin cfg0.N) : ∀ (u : Fin 1) (q : Fin 2048) (e : Fin 1024),
    iblk m c 0 t (ix3 u q e) = aX m c (ix3 (bOf t) q e) := fun u q e => blk0 m c t u q e
theorem hb1 (c : Dev nD) (t : Fin cfg0.N) : ∀ (u : Fin 1) (j : Fin 256) (e : Fin 1024),
    iblk m c 1 t (ix3 u j e) = aY m c (ix3 (bOf t) (kOf t j) e) := fun u j e => blk1 m c t u j e
theorem hb2 (c : Dev nD) (t : Fin cfg0.N) : ∀ (e : Fin 1024) (d : Fin 64),
    iblk m c 2 t (ix2 e d) = aWq m c (ix2 d e) := fun e d => (blk2 m c t e d).trans (HostArr.v1_apply m c e d)
theorem hb3 (c : Dev nD) (t : Fin cfg0.N) : ∀ (u : Fin 1) (d : Fin 64),
    iblk m c 3 t (ix2 u d) = abq m c (ix1 d) := fun u d => (blk3 m c t u d).trans (HostArr.v8_apply m c u d)
theorem hb4lo (c : Dev nD) (t : Fin cfg0.N) : ∀ (e : Fin 1024) (d : Fin 64),
    iblk m c 4 t (ix2 e ⟨d.val, by omega⟩) = aWk m c (ix2 d e) := fun e d => (blk4 m c t e _).trans (HostArr.v5_apply_lo m c e d)
theorem hb4hi (c : Dev nD) (t : Fin cfg0.N) : ∀ (e : Fin 1024) (d : Fin 64),
    iblk m c 4 t (ix2 e ⟨64 + d.val, by omega⟩) = aWvR m c (ix2 d e) := fun e d => (blk4 m c t e _).trans (HostArr.v5_apply_hi m c e d)
theorem hb5lo (c : Dev nD) (t : Fin cfg0.N) : ∀ (u : Fin 1) (d : Fin 64),
    iblk m c 5 t (ix2 u ⟨d.val, by omega⟩) = abk m c (ix1 d) := fun u d => (blk5 m c t u _).trans (HostArr.v10_apply_lo m c u d)
theorem hb5hi (c : Dev nD) (t : Fin cfg0.N) : ∀ (u : Fin 1) (d : Fin 64),
    iblk m c 5 t (ix2 u ⟨64 + d.val, by omega⟩) = abvR m c (ix1 d) := fun u d => (blk5 m c t u _).trans (HostArr.v10_apply_hi m c u d)
theorem hb6 (c : Dev nD) (t : Fin cfg0.N) : ∀ (d : Fin 64) (v : Fin 1024),
    iblk m c 6 t (ix2 d v) = aWvL m c (ix2 v d) := fun d v => (blk6 m c t d v).trans (HostArr.v7_apply m c d v)
theorem hb7 (c : Dev nD) (t : Fin cfg0.N) : ∀ (u : Fin 1) (v : Fin 1024),
    iblk m c 7 t (ix2 u v) = abvL m c (ix1 v) := fun u v => (blk7 m c t u v).trans (HostArr.v11_apply m c u v)

/-! ## The induction along the grid -/

/-- After grid point n, of batch b = n / 8: the scratch is the scaled query projection of batch b, and the output block
    is the running sum over the first (n % 8 + 1) * 256 keys of batch b. -/
theorem inv (c : Dev nD) (n : ℕ) : ∀ (hn : n < cfg0.N) (b : Fin 4) (hb : b.val = n / 8),
    (∀ (q : Fin 2048) (d : Fin 64), (outsAt0 m c n hn).2 (ix2 q d)
        = proj (aX m c) (aWq m c) (abq m c) b q d * Ideal.ofBits .f32 0x3E000000#32)
    ∧ (∀ (u : Fin 1) (q : Fin 2048) (v : Fin 1024), (outsAt0 m c n hn).1 (ix3 u q v)
        = psum (aX m c) (aY m c) (aWq m c) (abq m c) (aWk m c) (abk m c) (aWvR m c) (abvR m c) (aWvL m c) (abvL m c) b q v ((n % 8 + 1) * 256)) := by
  induction n using Nat.strong_induction_on with
  | _ n ih =>
    intro hn b hb
    have hN : cfg0.N = 32 := N_0
    obtain rfl : b = bOf ⟨n, hn⟩ := Fin.ext hb
    by_cases h0 : n % 8 = 0
    · -- the first key tile of a batch
      rw [outsAt0_A m c ⟨n, hn⟩ h0]
      dsimp only
      refine ⟨fun q d => ?_, fun u q v => ?_⟩
      · rw [Pieces.sout_A]
        exact qs_of (aX m c) (aWq m c) (abq m c) (bOf ⟨n, hn⟩) (iblk m c 0 ⟨n, hn⟩) (iblk m c 2 ⟨n, hn⟩) (iblk m c 3 ⟨n, hn⟩) (hb0 m c ⟨n, hn⟩) (hb2 m c ⟨n, hn⟩) (hb3 m c ⟨n, hn⟩) q d
      · rw [Pieces.out_A,
          step_of (aX m c) (aY m c) (aWq m c) (abq m c) (aWk m c) (abk m c) (aWvR m c) (abvR m c) (aWvL m c) (abvL m c) (bOf ⟨n, hn⟩) (kOf ⟨n, hn⟩) (iblk m c 1 ⟨n, hn⟩) (iblk m c 4 ⟨n, hn⟩) (iblk m c 5 ⟨n, hn⟩) (iblk m c 6 ⟨n, hn⟩) (iblk m c 7 ⟨n, hn⟩) (hb1 m c ⟨n, hn⟩) (hb4lo m c ⟨n, hn⟩) (hb4hi m c ⟨n, hn⟩) (hb5lo m c ⟨n, hn⟩) (hb5hi m c ⟨n, hn⟩) (hb6 m c ⟨n, hn⟩) (hb7 m c ⟨n, hn⟩) (k0_pay2 (iblk m c 0 ⟨n, hn⟩) (iblk m c 2 ⟨n, hn⟩) (iblk m c 3 ⟨n, hn⟩)) (qs_of (aX m c) (aWq m c) (abq m c) (bOf ⟨n, hn⟩) (iblk m c 0 ⟨n, hn⟩) (iblk m c 2 ⟨n, hn⟩) (iblk m c 3 ⟨n, hn⟩) (hb0 m c ⟨n, hn⟩) (hb2 m c ⟨n, hn⟩) (hb3 m c ⟨n, hn⟩)) (k0_pay3 (F := Ideal)) u q v,
          pay3_apply]
        refine Eq.trans (congrArg (· + _) (psum_zero (aX m c) (aY m c) (aWq m c) (abq m c) (aWk m c) (abk m c) (aWvR m c) (abvR m c) (aWvL m c) (abvL m c) (bOf ⟨n, hn⟩) q v).symm) ?_
        exact psum_step (aX m c) (aY m c) (aWq m c) (abq m c) (aWk m c) (abk m c) (aWvR m c) (abvR m c) (aWvL m c) (abvL m c) (bOf ⟨n, hn⟩) q v (n % 8) (by omega) (kOf ⟨n, hn⟩) (fun j => rfl) 0 _ (by omega) rfl
    · -- a later key tile
      have hn' : n - 1 < cfg0.N := by omega
      obtain ⟨ihs, iho⟩ := ih (n - 1) (by omega) hn' (bOf ⟨n, hn⟩) (by show n / 8 = (n - 1) / 8; omega)
      rw [outsAt0_B m c ⟨n, hn⟩ h0]
      dsimp only
      refine ⟨fun q d => ?_, fun u q v => ?_⟩
      · exact ihs q d
      · rw [Pieces.out_B,
          step_of (aX m c) (aY m c) (aWq m c) (abq m c) (aWk m c) (abk m c) (aWvR m c) (abvR m c) (aWvL m c) (abvL m c) (bOf ⟨n, hn⟩) (kOf ⟨n, hn⟩) (iblk m c 1 ⟨n, hn⟩) (iblk m c 4 ⟨n, hn⟩) (iblk m c 5 ⟨n, hn⟩) (iblk m c 6 ⟨n, hn⟩) (iblk m c 7 ⟨n, hn⟩) (hb1 m c ⟨n, hn⟩) (hb4lo m c ⟨n, hn⟩) (hb4hi m c ⟨n, hn⟩) (hb5lo m c ⟨n, hn⟩) (hb5hi m c ⟨n, hn⟩) (hb6 m c ⟨n, hn⟩) (hb7 m c ⟨n, hn⟩) (outsAt0 m c (n - 1) hn').2 ihs (outsAt0 m c (n - 1) hn').1 u q v,
          iho 0 q v]
        exact psum_step (aX m c) (aY m c) (aWq m c) (abq m c) (aWk m c) (abk m c) (aWvR m c) (abvR m c) (aWvL m c) (abvL m c) (bOf ⟨n, hn⟩) q v (n % 8) (by omega) (kOf ⟨n, hn⟩) (fun j => rfl) _ _ (by omega) rfl

end Cert.KernelIdeal.Run

end
-- ==== Proof.Final.lean ====
/-
  The result array after the run.

  The output block of a batch is written back once, after the batch's last key tile; by then it holds the running sum
  over all 2048 keys, which is the output entry of the specification. The four write-backs (batches 0..3) cover the
  result array, each index (b, q, v) lying in the block written back at grid point 8 * b + 7. So the result array
  ends holding the specification's function of the ten argument arrays, and the arguments are as launched.
-/
import proofs.«150910_j72275709657317_2_alg».proof.Proof.Inv
import proofs.«150910_j72275709657317_2_alg».proof.Proof.Gen.KernelIdeal.Value

noncomputable section

namespace Cert.KernelIdeal.Run

open Cert.KernelIdeal Cert.KernelIdeal.Gen Cert.KernelIdeal.Blk Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result: the specification's function of the argument arrays as launched. -/
abbrev result (c : Dev nD) : A3 := G (aX m c) (aY m c) (aWq m c) (abq m c) (aWk m c) (abk m c) (aWvR m c) (abvR m c) (aWvL m c) (abvL m c)

/-- An index of the result array is in grid point t's output block iff each coordinate is in the block's range. -/
theorem mem_blk8 (t : Fin cfg0.N) (i : S4x2048x1024.Idx) :
    i ∈ ((cfg0.win 8).blk t).view.set ↔ ∀ a : Fin 3, win0_8.index t a * S1x2048x1024.size a ≤ (i a).val
      ∧ (i a).val < win0_8.index t a * S1x2048x1024.size a + S1x2048x1024.size a := by
  show i ∈ ((View.whole main_v0).slice (win0_8.rect t)).set ↔ _
  rw [View.set_slice_whole, Rect.mem_set_unit]
  exact Iff.rfl

/-- What a write-back writes: after a batch's last key tile the block holds the batch's slab of the result. -/
theorem flushed_eq (c : Dev nD) (t : Fin cfg0.N) (hf : (cfg0.win 8).flush t = true) :
    (dats m 0 c).flushed 8 t = ((cfg0.win 8).blk t).view.read (Elt Ideal) (result m c) := by
  have h7 : t.val % 8 = 7 := (flush0_8 t).mp hf
  rw [Cert.KernelIdeal.Value.flushed8]
  funext j
  show (outsAt0 m c t.val t.isLt).1 j = result m c (((cfg0.win 8).blk t).view.emb j)
  obtain ⟨u, q, v, rfl⟩ : ∃ (u : Fin 1) (q : Fin 2048) (v : Fin 1024), j = ix3 u q v := ⟨j 0, j 1, j 2, eq_ix3 j⟩
  rw [emb8, (inv m c t.val t.isLt (bOf t) rfl).2 u q v, h7]
  exact psum_all (aX m c) (aY m c) (aWq m c) (abq m c) (aWk m c) (abk m c) (aWvR m c) (abvR m c) (aWvL m c) (abvL m c) (bOf t) q v

/-- The four write-backs cover the result array, so it ends holding the result. -/
theorem final (c : Dev nD) : (dats m 0 c).arrAt 8 cfg0.N = result m c :=
  (dats m 0 c).arrAt_eq_of_cover 8 (result m c) (flushed_eq m c) fun i => by
    have hN : cfg0.N = 32 := N_0
    have hi0 : (i 0).val < 4 := (i 0).isLt
    have hi1 : (i 1).val < 2048 := (i 1).isLt
    have hi2 : (i 2).val < 1024 := (i 2).isLt
    have ht : 8 * (i 0).val + 7 < cfg0.N := by omega
    refine ⟨⟨8 * (i 0).val + 7, ht⟩, (flush0_8 _).mpr (by show (8 * (i 0).val + 7) % 8 = 7; omega), ?_⟩
    rw [mem_blk8]
    obtain ⟨-, -, -, -, -, -, -, -, -, -, -, -, -, -, -, -, -, -, e0, e1, e2⟩ := idx_facts ⟨8 * (i 0).val + 7, ht⟩
    have e0' : win0_8.index ⟨8 * (i 0).val + 7, ht⟩ (0 : Fin 3) = (8 * (i 0).val + 7) / 8 := e0
    intro a
    match a with
    | ⟨0, _⟩ =>
      show win0_8.index ⟨8 * (i 0).val + 7, ht⟩ (0 : Fin 3) * 1 ≤ (i 0).val
        ∧ (i 0).val < win0_8.index ⟨8 * (i 0).val + 7, ht⟩ (0 : Fin 3) * 1 + 1
      rw [e0']; omega
    | ⟨1, _⟩ =>
      show win0_8.index ⟨8 * (i 0).val + 7, ht⟩ (1 : Fin 3) * 2048 ≤ (i 1).val
        ∧ (i 1).val < win0_8.index ⟨8 * (i 0).val + 7, ht⟩ (1 : Fin 3) * 2048 + 2048
      rw [e1]; omega
    | ⟨2, _⟩ =>
      show win0_8.index ⟨8 * (i 0).val + 7, ht⟩ (2 : Fin 3) * 1024 ≤ (i 2).val
        ∧ (i 2).val < win0_8.index ⟨8 * (i 0).val + 7, ht⟩ (2 : Fin 3) * 1024 + 1024
      rw [e2]; omega

/-- THE KERNEL'S RUN: every weakly fair execution terminates with the result array at the specification's function of
    the argument arrays, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Run

end
-- ==== Proof.RefIsG.lean ====
/-
  The reference program's result is the function G.

  Each stage of the reference is read at explicit coordinates and identified with the part of G it computes:
  the three 64-wide projections, the value rows, the score (the contraction divided by the square root of
  sixty-four, which is the score with the query row scaled by one eighth), the largest score of a key over
  the queries, the exponentials, their sum over the queries, the weights, and the final contraction over keys.
-/
import proofs.«150910_j72275709657317_2_alg».proof.Proof.Gen.ReferenceIdeal.Read
import proofs.«150910_j72275709657317_2_alg».proof.Proof.Spec
import Idealize.ShloMosaic.Lib.ValueIdx
import Idealize.ShloMosaic.PureOps.Ideal.Laws
import Idealize.ShloMosaic.PureOps.Reduce

noncomputable section

namespace Cert.Attn.Ref

open Idealize.ShloMosaic Idealize.ShloMosaic.ValueIdx Cert.ReferenceIdeal Cert.ReferenceIdeal.Read

/-! ## The index maps at explicit coordinates

Each stage reads its operands at an index computed from the result's index. At a result index given by its
coordinates these are again indices given by coordinates. -/

section Indices

variable (b : Fin 4) (q k : Fin 2048) (d : Fin 64) (e : Fin 1024) (v : Fin 1024)

/-- A projection's left operand is read at (batch, row, e). -/
theorem lidx_v0 : lidx_main_v0 (ix3 b q d) e = ix3 b q e := by
  funext a; match a with | ⟨0, _⟩ => rfl | ⟨1, _⟩ => rfl | ⟨2, _⟩ => rfl
/-- A projection's right operand is read at (d, e). -/
theorem ridx_v0 : ridx_main_v0 (ix3 b q d) e = ix2 d e := by
  funext a; match a with | ⟨0, _⟩ => rfl | ⟨1, _⟩ => rfl
/-- A projection's bias is read at d. -/
theorem idx_v1_v2 : idx_main_v1 (idx_main_v2 (ix3 b q d)) = ix1 d := by
  funext a; match a with | ⟨0, _⟩ => rfl

theorem lidx_v4 : lidx_main_v4 (ix3 b k d) e = ix3 b k e := by
  funext a; match a with | ⟨0, _⟩ => rfl | ⟨1, _⟩ => rfl | ⟨2, _⟩ => rfl
theorem ridx_v4 : ridx_main_v4 (ix3 b k d) e = ix2 d e := by
  funext a; match a with | ⟨0, _⟩ => rfl | ⟨1, _⟩ => rfl
theorem idx_v5_v6 : idx_main_v5 (idx_main_v6 (ix3 b k d)) = ix1 d := by
  funext a; match a with | ⟨0, _⟩ => rfl

theorem lidx_v23 : lidx_main_v23 (ix3 b k d) e = ix3 b k e := by
  funext a; match a with | ⟨0, _⟩ => rfl | ⟨1, _⟩ => rfl | ⟨2, _⟩ => rfl
theorem ridx_v23 : ridx_main_v23 (ix3 b k d) e = ix2 d e := by
  funext a; match a with | ⟨0, _⟩ => rfl | ⟨1, _⟩ => rfl
theorem idx_v24_v25 : idx_main_v24 (idx_main_v25 (ix3 b k d)) = ix1 d := by
  funext a; match a with | ⟨0, _⟩ => rfl

/-- The score's left operand is the query row q at d. -/
theorem lidx_v8 : lidx_main_v8 (ix3 b q k) d = ix3 b q d := by
  funext a; match a with | ⟨0, _⟩ => rfl | ⟨1, _⟩ => rfl | ⟨2, _⟩ => rfl
/-- The score's right operand is the key row k at d. -/
theorem ridx_v8 : ridx_main_v8 (ix3 b q k) d = ix3 b k d := by
  funext a; match a with | ⟨0, _⟩ => rfl | ⟨1, _⟩ => rfl | ⟨2, _⟩ => rfl

/-- The per-key quantity broadcast back over the queries is read at (batch, key). -/
theorem idx_v15_v16 : idx_main_v15 (idx_main_v16 (ix3 b q k)) = ix2 b k := by
  funext a; match a with | ⟨0, _⟩ => rfl | ⟨1, _⟩ => rfl
theorem idx_v20_v21 : idx_main_v20 (idx_main_v21 (ix3 b q k)) = ix2 b k := by
  funext a; match a with | ⟨0, _⟩ => rfl | ⟨1, _⟩ => rfl
/-- The sum over the queries reads the exponential at (batch, q, key). -/
theorem idx_v19 : idx_main_v19 (ix2 b k) q = ix3 b q k := by
  funext a; match a with | ⟨0, _⟩ => rfl | ⟨1, _⟩ => rfl | ⟨2, _⟩ => rfl

theorem lidx_v27 : lidx_main_v27 (ix3 b k v) d = ix3 b k d := by
  funext a; match a with | ⟨0, _⟩ => rfl | ⟨1, _⟩ => rfl | ⟨2, _⟩ => rfl
theorem ridx_v27 : ridx_main_v27 (ix3 b k v) d = ix2 v d := by
  funext a; match a with | ⟨0, _⟩ => rfl | ⟨1, _⟩ => rfl
theorem idx_v28_v29 : idx_main_v28 (idx_main_v29 (ix3 b k v)) = ix1 v := by
  funext a; match a with | ⟨0, _⟩ => rfl

/-- The output's left operand is the weight of query q against key k. -/
theorem lidx_v31 : lidx_main_v31 (ix3 b q v) k = ix3 b q k := by
  funext a; match a with | ⟨0, _⟩ => rfl | ⟨1, _⟩ => rfl | ⟨2, _⟩ => rfl
/-- The output's right operand is the value row of key k at v. -/
theorem ridx_v31 : ridx_main_v31 (ix3 b q v) k = ix3 b k v := by
  funext a; match a with | ⟨0, _⟩ => rfl | ⟨1, _⟩ => rfl | ⟨2, _⟩ => rfl

/-- The index (batch, key) with the query coordinate put back on the middle axis is (batch, query, key). -/
theorem lift_mid (h : S4x2048x2048.Reduces [1] S4x2048) (q' : Fin (S4x2048x2048.size 1)) :
    h.lift (ix2 b k) q' = ix3 b (⟨q'.val, q'.isLt⟩ : Fin 2048) k := by
  funext c; apply Fin.ext
  fin_cases c <;> rfl

end Indices

/-! ## The stages -/

section Stages

variable (x0 x1 : (⟨S4x2048x1024, .f32⟩ : BufTy).Contents (Elt Ideal))
  (x2 : (⟨S64x1024, .f32⟩ : BufTy).Contents (Elt Ideal)) (x3 : (⟨S64, .f32⟩ : BufTy).Contents (Elt Ideal))
  (x4 : (⟨S64x1024, .f32⟩ : BufTy).Contents (Elt Ideal)) (x5 : (⟨S64, .f32⟩ : BufTy).Contents (Elt Ideal))
  (x6 : (⟨S64x1024, .f32⟩ : BufTy).Contents (Elt Ideal)) (x7 : (⟨S64, .f32⟩ : BufTy).Contents (Elt Ideal))
  (x8 : (⟨S1024x64, .f32⟩ : BufTy).Contents (Elt Ideal)) (x9 : (⟨S1024, .f32⟩ : BufTy).Contents (Elt Ideal))

/-- The query projection. -/
theorem v3_eq (b : Fin 4) (q : Fin 2048) (d : Fin 64) :
    val_main_v3 (F := Ideal) x0 x2 x3 (ix3 b q d) = proj x0 x2 x3 b q d := by
  rw [val_main_v3_apply, val_main_v0_apply, val_main_v2_apply, val_main_v1_apply, idx_v1_v2]
  unfold proj
  show (∑ e : Fin 1024, _) + _ = _
  refine congrArg (· + x3 (ix1 d)) (Finset.sum_congr rfl fun e _ => ?_)
  rw [lidx_v0, ridx_v0]

/-- The key projection. -/
theorem v7_eq (b : Fin 4) (k : Fin 2048) (d : Fin 64) :
    val_main_v7 (F := Ideal) x1 x4 x5 (ix3 b k d) = proj x1 x4 x5 b k d := by
  rw [val_main_v7_apply, val_main_v4_apply, val_main_v6_apply, val_main_v5_apply, idx_v5_v6]
  unfold proj
  show (∑ e : Fin 1024, _) + _ = _
  refine congrArg (· + x5 (ix1 d)) (Finset.sum_congr rfl fun e _ => ?_)
  rw [lidx_v4, ridx_v4]

/-- The 64-wide projection inside the value row. -/
theorem v26_eq (b : Fin 4) (k : Fin 2048) (d : Fin 64) :
    val_main_v26 (F := Ideal) x1 x6 x7 (ix3 b k d) = proj x1 x6 x7 b k d := by
  rw [val_main_v26_apply, val_main_v23_apply, val_main_v25_apply, val_main_v24_apply, idx_v24_v25]
  unfold proj
  show (∑ e : Fin 1024, _) + _ = _
  refine congrArg (· + x7 (ix1 d)) (Finset.sum_congr rfl fun e _ => ?_)
  rw [lidx_v23, ridx_v23]

/-- The value row. -/
theorem v30_eq (b : Fin 4) (k : Fin 2048) (v : Fin 1024) :
    val_main_v30 (F := Ideal) x1 x6 x7 x8 x9 (ix3 b k v) = vals x1 x6 x7 x8 x9 b k v := by
  rw [val_main_v30_apply, val_main_v27_apply, val_main_v29_apply, val_main_v28_apply, idx_v28_v29]
  unfold vals
  show (∑ d : Fin 64, _) + _ = _
  refine congrArg (· + x9 (ix1 v)) (Finset.sum_congr rfl fun d _ => ?_)
  rw [lidx_v27, ridx_v27, v26_eq]

/-- The score: the contraction of the query row against the key row, divided by the square root of sixty-four. -/
theorem v11_eq (b : Fin 4) (q k : Fin 2048) :
    val_main_v11 (F := Ideal) x0 x1 x2 x3 x4 x5 (ix3 b q k) = score x0 x1 x2 x3 x4 x5 b q k := by
  rw [val_main_v11_apply, val_main_v8_apply, val_main_v10_apply, score_eq_div]
  show Ideal.div (∑ d : Fin 64, _) (Ideal.sqrt (Ideal.ofBits .f32 0x42800000#32)) = _
  refine congrArg (fun s => Ideal.div s (Ideal.sqrt (Ideal.ofBits .f32 0x42800000#32))) (Finset.sum_congr rfl fun d _ => ?_)
  rw [lidx_v8, ridx_v8, v3_eq, v7_eq]

/-- The maximum over the query axis, from minus infinity, is the fold of max over the queries. -/
theorem v12_eq (b : Fin 4) (k : Fin 2048) :
    val_main_v12 (F := Ideal) x0 x1 x2 x3 x4 x5 (ix2 b k) = colmax x0 x1 x2 x3 x4 x5 b k := by
  have h : S4x2048x2048.Reduces [1] S4x2048 := by decide
  unfold val_main_v12
  rw [Host.reduce_eq_fold_single FloatOps.maximumf _ _ _ h]
  unfold colmax
  have hf : (val_main_v11 (F := Ideal) x0 x1 x2 x3 x4 x5 ∘ h.lift (ix2 b k))
      = fun q : Fin 2048 => score x0 x1 x2 x3 x4 x5 b q k :=
    funext fun q => by
      show val_main_v11 (F := Ideal) x0 x1 x2 x3 x4 x5 (h.lift (ix2 b k) q) = _
      rw [lift_mid]
      exact v11_eq x0 x1 x2 x3 x4 x5 b q k
  exact congrArg (fun f => Finset.fold max (Ideal.ofBits .f32 0xFF800000#32) f (Finset.univ : Finset (Fin 2048))) hf

/-- The largest score of a key: the maximum with minus infinity changes nothing. -/
theorem v14_eq (b : Fin 4) (k : Fin 2048) :
    val_main_v14 (F := Ideal) x0 x1 x2 x3 x4 x5 (ix2 b k) = colmax x0 x1 x2 x3 x4 x5 b k := by
  rw [val_main_v14_apply, val_main_v13_apply, v12_eq]
  show max (Ideal.ofBits .f32 0xFF800000#32) _ = _
  rw [ofBits_negInf]
  exact max_eq_right bot_le

/-- The exponential of a score less its key's largest. -/
theorem v18_eq (b : Fin 4) (q k : Fin 2048) :
    val_main_v18 (F := Ideal) x0 x1 x2 x3 x4 x5 (ix3 b q k) = expo x0 x1 x2 x3 x4 x5 b q k := by
  rw [val_main_v18_apply, val_main_v17_apply, val_main_v16_apply, val_main_v15_apply, idx_v15_v16, v11_eq, v14_eq]
  rfl

/-- The sum of a key's exponentials over the queries, from zero. -/
theorem v19_eq (b : Fin 4) (k : Fin 2048) :
    val_main_v19 (F := Ideal) x0 x1 x2 x3 x4 x5 (ix2 b k) = colsum x0 x1 x2 x3 x4 x5 b k := by
  rw [val_main_v19_apply]
  unfold colsum
  show Ideal.ofBits .f32 0x00000000#32 + ∑ q : Fin 2048, _ = _
  rw [ofBits_zero, zero_add]
  exact Finset.sum_congr rfl fun q _ => by rw [idx_v19, v18_eq]

/-- The weight. -/
theorem v22_eq (b : Fin 4) (q k : Fin 2048) :
    val_main_v22 (F := Ideal) x0 x1 x2 x3 x4 x5 (ix3 b q k) = attn x0 x1 x2 x3 x4 x5 b q k := by
  rw [val_main_v22_apply, val_main_v21_apply, val_main_v20_apply, idx_v20_v21, v18_eq, v19_eq]
  rfl

/-- The reference's result is G. -/
theorem ref_eq :
    val_main_v31 (F := Ideal) x0 x1 x2 x3 x4 x5 x6 x7 x8 x9 = G x0 x1 x2 x3 x4 x5 x6 x7 x8 x9 := by
  funext i
  obtain ⟨b, q, v, rfl⟩ : ∃ (b : Fin 4) (q : Fin 2048) (v : Fin 1024), i = ix3 b q v := ⟨i 0, i 1, i 2, eq_ix3 i⟩
  rw [val_main_v31_apply]
  show _ = out x0 x1 x2 x3 x4 x5 x6 x7 x8 x9 b q v
  unfold out
  exact Finset.sum_congr rfl fun k _ => by rw [lidx_v31, ridx_v31, v22_eq, v30_eq]

end Stages

end Cert.Attn.Ref

end
-- ==== Proof.lean ====
/-
  The certificate: a cross-attention kernel against its jnp reference, equal as functions on the extended reals.

  Both programs compute, for batch b, query q and output column v,
      out[b,q,v] = sum over keys k of a[b,q,k] * V[b,k,v],
  where V is the value row of key k (a 64-wide projection of y taken back up to 1024 wide), and a is the softmax,
  taken over the QUERY axis for each fixed key, of the scores s[b,q,k] = <Q[b,q,:], K[b,k,:]> / 8.

  The kernel walks a grid of 4 batches by 8 key tiles. At the first key tile of a batch it stores the projected query
  rows, scaled by 1/8, in a scratch buffer and zeroes the output block; at every key tile it projects the tile's 256
  key rows, forms their scores against all 2048 queries, normalises each key's column over the queries (the whole
  query axis is present, so the column's softmax is complete within the tile) and adds the tile's weights times the
  tile's value rows to the output block, which is written back after the batch's eighth tile.

  Two facts join the two sides. (1) Scaling every query row by 1/8 before the contraction is dividing the contraction
  by sqrt 64 = 8: a product with a finite nonnegative constant distributes over a sum of extended reals, whatever the
  summands (Spec.lean, score_eq_div). (2) The eight tile sums added in order are the sum over all 2048 keys: addition
  of extended reals is associative and commutative (Partial.lean). Neither needs the inputs finite, so the
  precondition is never opened. Format changes to and from bf16 are the identity on exact values, and the matrix
  products into zero accumulators are plain sums.

  The modules: LibERealScale (the distributivity behind law 1), Spec (the function G and law 1), Partial (law 2), Matmuls and Payload (the body's arithmetic read entry
  by entry), TileMath (one grid point in G's vocabulary), Pieces (what a grid point stores, from its run), Blocks and
  HostArrays (what the windows' blocks and the prepared weight arrays hold), Inv (the induction along the grid), Final
  (the result array and the kernel's run), RefIsG (the reference's result is G). The three frames are the generated
  ones; the ideal pass rewrote nothing, so the preservation conjunct is trivial.
-/
import proofs.«150910_j72275709657317_2_alg».proof.Defs
import proofs.«150910_j72275709657317_2_alg».proof.Proof.Gen.Kernel
import proofs.«150910_j72275709657317_2_alg».proof.Proof.Gen.Kernel.Skeleton
import proofs.«150910_j72275709657317_2_alg».proof.Proof.Gen.Kernel.Launch
import proofs.«150910_j72275709657317_2_alg».proof.Proof.Gen.Kernel.Points
import proofs.«150910_j72275709657317_2_alg».proof.Proof.Gen.Kernel.Frame
import proofs.«150910_j72275709657317_2_alg».proof.Proof.Gen.KernelIdeal
import proofs.«150910_j72275709657317_2_alg».proof.Proof.Gen.KernelIdeal.Skeleton
import proofs.«150910_j72275709657317_2_alg».proof.Proof.Gen.KernelIdeal.Launch
import proofs.«150910_j72275709657317_2_alg».proof.Proof.Gen.KernelIdeal.Points
import proofs.«150910_j72275709657317_2_alg».proof.Proof.Gen.KernelIdeal.Frame
import proofs.«150910_j72275709657317_2_alg».proof.Proof.Gen.ReferenceIdeal
import proofs.«150910_j72275709657317_2_alg».proof.Proof.Gen.KernelIdeal.Value
import proofs.«150910_j72275709657317_2_alg».proof.Proof.Gen.ReferenceIdeal.Run
import proofs.«150910_j72275709657317_2_alg».proof.Proof.Gen.ReferenceIdeal.Read
import proofs.«150910_j72275709657317_2_alg».proof.Proof.Gen.Pre_finite_inputs
import proofs.«150910_j72275709657317_2_alg».proof.Proof.Final
import proofs.«150910_j72275709657317_2_alg».proof.Proof.RefIsG
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the kernel's result array and the reference's are the same function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v31_eq, Cert.Attn.Ref.ref_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
